-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)) (v2 : (c : Dev Cert.KernelIdeal.nD) → Buf (Elt Ideal) ((c.tc : Thread Cert.KernelIdeal.nD Cert.KernelIdeal.τ).loc Cert.KernelIdeal.main_v7_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_v7_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_v12) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x256 : Shape := ⟨2, ![131072, 256]⟩
abbrev S512x256 : Shape := ⟨2, ![512, 256]⟩
abbrev S_ : Shape := ⟨0, ![]⟩

class Facts : Prop where
  bcast_S_S131072x256 : S_.BroadcastsInDim S131072x256 (![] : Fin 0 → Fin S131072x256.rank)
  reducesTo_S131072x256_S_d0_1 : S131072x256.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_

variable [Facts]

def fn {F : FTy → Type} [FloatOps F] (main_arg0 : FVec F S131072x256 .f32) (main_arg1 : FVec F S512x256 .f32) : IVec S_ 1 :=
  let main_v0 : FVec F S131072x256 .f32 := Host.absf main_arg0
  let main_cst : FVec F S_ .f32 := constant S_ .f32 0x7F800000#32
  let main_v1 : FVec F S131072x256 .f32 := broadcastInDim S131072x256 ![] bcast_S_S131072x256 main_cst
  let main_v2 : IVec S131072x256 1 := cmpf .olt main_v0 main_v1
  let main_c : IVec S_ 1 := constantI S_ 1 1#1
  let main_v3 : IVec S_ 1 := (fun x v => Host.reduce IntOp.andi x v reducesTo_S131072x256_S_d0_1 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  main_v8
-- ==== Kernel.lean ====
abbrev S131072x256 : Shape := ⟨2, ![131072, 256]⟩
abbrev S512x256 : Shape := ⟨2, ![512, 256]⟩
abbrev S_ : Shape := ⟨0, ![]⟩
abbrev S512 : Shape := ⟨1, ![512]⟩
abbrev S512x1 : Shape := ⟨2, ![512, 1]⟩
abbrev S1x512 : Shape := ⟨2, ![1, 512]⟩
abbrev S131072x512 : Shape := ⟨2, ![131072, 512]⟩
abbrev S1024x256 : Shape := ⟨2, ![1024, 256]⟩
abbrev S1024x512 : Shape := ⟨2, ![1024, 512]⟩
abbrev S1024 : Shape := ⟨1, ![1024]⟩
abbrev S1024x1 : Shape := ⟨2, ![1024, 1]⟩

abbrev nBuf : Space → Nat
  | .hbm => 14
  | .vmem => 10
  | .smem => 0
  | _ => 0

abbrev bufTy : (tb : Table) → Fin (tcTables nBuf tb) → BufTy
  | .hbm, ⟨0, _⟩ => ⟨S131072x256, .f32⟩
  | .hbm, ⟨1, _⟩ => ⟨S512x256, .f32⟩
  | .hbm, ⟨2, _⟩ => ⟨S512x256, .f32⟩
  | .hbm, ⟨3, _⟩ => ⟨S_, .f32⟩
  | .hbm, ⟨4, _⟩ => ⟨S512, .f32⟩
  | .hbm, ⟨5, _⟩ => ⟨S512x1, .f32⟩
  | .hbm, ⟨6, _⟩ => ⟨S512x1, .f32⟩
  | .hbm, ⟨7, _⟩ => ⟨S_, .f32⟩
  | .hbm, ⟨8, _⟩ => ⟨S512x1, .f32⟩
  | .hbm, ⟨9, _⟩ => ⟨S512x1, .f32⟩
  | .hbm, ⟨10, _⟩ => ⟨S1x512, .f32⟩
  | .hbm, ⟨11, _⟩ => ⟨S131072x256, .f32⟩
  | .hbm, ⟨12, _⟩ => ⟨S131072x512, .f32⟩
  | .hbm, ⟨13, _⟩ => ⟨S131072x512, .f32⟩
  | .local _ .vmem, ⟨0, _⟩ => ⟨S1024x256, .f32⟩
  | .local _ .vmem, ⟨1, _⟩ => ⟨S1024x256, .f32⟩
  | .local _ .vmem, ⟨2, _⟩ => ⟨S512x256, .f32⟩
  | .local _ .vmem, ⟨3, _⟩ => ⟨S1x512, .f32⟩
  | .local _ .vmem, ⟨4, _⟩ => ⟨S1024x256, .f32⟩
  | .local _ .vmem, ⟨5, _⟩ => ⟨S1024x256, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | _, _ => ⟨S131072x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v7_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  reducesTo_S512x256_S512_d1 : S512x256.ReducesTo [1] S512
  h_S_ : 0 < S_.numel
  bcast_S512_S512x1_0 : S512.BroadcastsInDim S512x1 (![0] : Fin 1 → Fin S512x1.rank)
  bcast_S_S512x1 : S_.BroadcastsInDim S512x1 (![] : Fin 0 → Fin S512x1.rank)
  shapeCasts_S512x1_S1x512 : S512x1.ShapeCasts S1x512
  inb_S1024x256_S1024x256_0_0 : ∀ a, (![0, 0] : Fin 2 → Nat) a + S1024x256.size a ≤ S1024x256.size a
  h_S1024x256 : 0 < S1024x256.numel
  inb_S512x256_S512x256_0_0 : ∀ a, (![0, 0] : Fin 2 → Nat) a + S512x256.size a ≤ S512x256.size a
  h_S512x256 : 0 < S512x256.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  reduces_S1024x256_S1024 : S1024x256.Reduces [1] S1024
  shapeCasts_S1024_S1024x1 : S1024.ShapeCasts S1024x1
  bitsLt_bf16_f32 : FTy.bits .bf16 < FTy.bits .f32
  broadcasts_S1024x1_S1024x512 : S1024x1.Broadcasts S1024x512
  broadcasts_S1x512_S1024x512 : S1x512.Broadcasts S1024x512
  reduces_S1024x512_S1024 : S1024x512.Reduces [1] S1024
  inb_S1024x512_S1024x512_0_0 : ∀ a, (![0, 0] : Fin 2 → Nat) a + S1024x512.size a ≤ S1024x512.size a
  h_S1024x512 : 0 < S1024x512.numel
  dot_S1024x256_S512x256_S1024x512_1_1_0_0_n_n_wf : DotDims.WF S1024x256 S512x256 S1024x512 [1] [1] [0] [0] [] []
  dot_S1024x512_S512x256_S1024x256_1_0_0_1_n_n_wf : DotDims.WF S1024x512 S512x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S131072x256.size a
  hwx0_0 : ∀ i : grid0.Coords, EltTy.bits .f32 = 32 ∨ (Rect.block (s := S131072x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S131072x256.size a
  hwx0_3 : ∀ i : grid0.Coords, EltTy.bits .f32 = 32 ∨ (Rect.block (s := S131072x256) S1024x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S131072x512.size a
  hwx0_4 : ∀ i : grid0.Coords, EltTy.bits .f32 = 32 ∨ (Rect.block (s := S131072x512) S1024x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x512.size a ≤ S131072x512.size a
  hwx0_5 : ∀ i : grid0.Coords, EltTy.bits .f32 = 32 ∨ (Rect.block (s := S131072x512) S1024x512.size (cc0_transform_5 i) (hinb0_5 i)).WholeWords (EltTy.packing .f32)

variable [Facts₀]

def dot_S1024x256_S512x256_S1024x512_1_1_0_0_n_n : DotDims S1024x256 S512x256 S1024x512 where
  lhsContracting := [1]
  rhsContracting := [1]
  lhsNonContracting := [0]
  rhsNonContracting := [0]
  lhsBatch := []
  rhsBatch := []
  wf := dot_S1024x256_S512x256_S1024x512_1_1_0_0_n_n_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7_0) S1024x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7_1) S1024x512.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v7_2) S1024x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S131072x256 : Shape := ⟨2, ![131072, 256]⟩
abbrev S512x256 : Shape := ⟨2, ![512, 256]⟩
abbrev S_ : Shape := ⟨0, ![]⟩
abbrev S131072 : Shape := ⟨1, ![131072]⟩
abbrev S131072x1 : Shape := ⟨2, ![131072, 1]⟩
abbrev S512 : Shape := ⟨1, ![512]⟩
abbrev S512x1 : Shape := ⟨2, ![512, 1]⟩
abbrev S256x512 : Shape := ⟨2, ![256, 512]⟩
abbrev S131072x512 : Shape := ⟨2, ![131072, 512]⟩
abbrev S1x512 : Shape := ⟨2, ![1, 512]⟩

abbrev nBuf : Space → Nat
  | .hbm => 61
  | .vmem => 0
  | .smem => 0
  | _ => 0

abbrev bufTy : (tb : Table) → Fin (tcTables nBuf tb) → BufTy
  | .hbm, ⟨0, _⟩ => ⟨S131072x256, .f32⟩
  | .hbm, ⟨1, _⟩ => ⟨S512x256, .f32⟩
  | .hbm, ⟨2, _⟩ => ⟨S131072x256, .f32⟩
  | .hbm, ⟨3, _⟩ => ⟨S_, .f32⟩
  | .hbm, ⟨4, _⟩ => ⟨S131072, .f32⟩
  | .hbm, ⟨5, _⟩ => ⟨S131072x1, .f32⟩
  | .hbm, ⟨6, _⟩ => ⟨S131072x1, .f32⟩
  | .hbm, ⟨7, _⟩ => ⟨S_, .f32⟩
  | .hbm, ⟨8, _⟩ => ⟨S131072x1, .f32⟩
  | .hbm, ⟨9, _⟩ => ⟨S131072x1, .f32⟩
  | .hbm, ⟨10, _⟩ => ⟨S512x256, .f32⟩
  | .hbm, ⟨11, _⟩ => ⟨S_, .f32⟩
  | .hbm, ⟨12, _⟩ => ⟨S512, .f32⟩
  | .hbm, ⟨13, _⟩ => ⟨S512x1, .f32⟩
  | .hbm, ⟨14, _⟩ => ⟨S512x1, .f32⟩
  | .hbm, ⟨15, _⟩ => ⟨S_, .f32⟩
  | .hbm, ⟨16, _⟩ => ⟨S512x1, .f32⟩
  | .hbm, ⟨17, _⟩ => ⟨S512x1, .f32⟩
  | .hbm, ⟨18, _⟩ => ⟨S256x512, .f32⟩
  | .hbm, ⟨19, _⟩ => ⟨S131072x512, .f32⟩
  | .hbm, ⟨20, _⟩ => ⟨S1x512, .f32⟩
  | .hbm, ⟨21, _⟩ => ⟨S131072x512, .f32⟩
  | .hbm, ⟨22, _⟩ => ⟨S131072x512, .f32⟩
  | .hbm, ⟨23, _⟩ => ⟨S131072x512, .f32⟩
  | .hbm, ⟨24, _⟩ => ⟨S131072x512, .f32⟩
  | .hbm, ⟨25, _⟩ => ⟨S_, .f32⟩
  | .hbm, ⟨26, _⟩ => ⟨S131072, .f32⟩
  | .hbm, ⟨27, _⟩ => ⟨S_, .f32⟩
  | .hbm, ⟨28, _⟩ => ⟨S131072, .f32⟩
  | .hbm, ⟨29, _⟩ => ⟨S131072, .f32⟩
  | .hbm, ⟨30, _⟩ => ⟨S131072x1, .f32⟩
  | .hbm, ⟨31, _⟩ => ⟨S131072x512, .f32⟩
  | .hbm, ⟨32, _⟩ => ⟨S131072x512, .f32⟩
  | .hbm, ⟨33, _⟩ => ⟨S131072x512, .f32⟩
  | .hbm, ⟨34, _⟩ => ⟨S_, .f32⟩
  | .hbm, ⟨35, _⟩ => ⟨S131072, .f32⟩
  | .hbm, ⟨36, _⟩ => ⟨S131072x1, .f32⟩
  | .hbm, ⟨37, _⟩ => ⟨S131072x512, .f32⟩
  | .hbm, ⟨38, _⟩ => ⟨S131072x512, .f32⟩
  | .hbm, ⟨39, _⟩ => ⟨S_, .f32⟩
  | .hbm, ⟨40, _⟩ => ⟨S131072x512, .f32⟩
  | .hbm, ⟨41, _⟩ => ⟨S131072x512, .f32⟩
  | .hbm, ⟨42, _⟩ => ⟨S_, .f32⟩
  | .hbm, ⟨43, _⟩ => ⟨S131072x512, .f32⟩
  | .hbm, ⟨44, _⟩ => ⟨S131072x512, .f32⟩
  | .hbm, ⟨45, _⟩ => ⟨S131072x512, .f32⟩
  | .hbm, ⟨46, _⟩ => ⟨S131072x512, .f32⟩
  | .hbm, ⟨47, _⟩ => ⟨S_, .f32⟩
  | .hbm, ⟨48, _⟩ => ⟨S131072x512, .f32⟩
  | .hbm, ⟨49, _⟩ => ⟨S131072x512, .f32⟩
  | .hbm, ⟨50, _⟩ => ⟨S131072x512, .f32⟩
  | .hbm, ⟨51, _⟩ => ⟨S131072x512, .f32⟩
  | .hbm, ⟨52, _⟩ => ⟨S_, .f32⟩
  | .hbm, ⟨53, _⟩ => ⟨S131072, .f32⟩
  | .hbm, ⟨54, _⟩ => ⟨S131072x1, .f32⟩
  | .hbm, ⟨55, _⟩ => ⟨S_, .f32⟩
  | .hbm, ⟨56, _⟩ => ⟨S131072x1, .f32⟩
  | .hbm, ⟨57, _⟩ => ⟨S131072x1, .f32⟩
  | .hbm, ⟨58, _⟩ => ⟨S131072x512, .f32⟩
  | .hbm, ⟨59, _⟩ => ⟨S131072x512, .f32⟩
  | .hbm, ⟨60, _⟩ => ⟨S131072x256, .f32⟩
  | _, _ => ⟨S131072x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_call1_v0 : Ref sig .tc := ⟨.hbm, 10, rfl⟩
abbrev main_call1_cst : Ref sig .tc := ⟨.hbm, 11, rfl⟩
abbrev main_call1_v1 : Ref sig .tc := ⟨.hbm, 12, rfl⟩
abbrev main_call1_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_3 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev main_v25 : Ref sig .tc := ⟨.hbm, 41, rfl⟩
abbrev main_call2_cst : Ref sig .tc := ⟨.hbm, 42, rfl⟩
abbrev main_call2_v0 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_5 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_6 : Ref sig .tc := ⟨.hbm, 52, rfl⟩
abbrev main_v33 : Ref sig .tc := ⟨.hbm, 53, rfl⟩
abbrev main_v34 : Ref sig .tc := ⟨.hbm, 54, rfl⟩
abbrev main_cst_7 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩

abbrev nD : Nat := 1
abbrev τ : Topo := Topo.v7x

variable {F : FTy → Type} [FloatOps F]

class Facts₀ : Prop where
  reducesTo_S131072x256_S131072_d1 : S131072x256.ReducesTo [1] S131072
  h_S_ : 0 < S_.numel
  bcast_S131072_S131072x1_0 : S131072.BroadcastsInDim S131072x1 (![0] : Fin 1 → Fin S131072x1.rank)
  bcast_S_S131072x1 : S_.BroadcastsInDim S131072x1 (![] : Fin 0 → Fin S131072x1.rank)
  reducesTo_S512x256_S512_d1 : S512x256.ReducesTo [1] S512
  bcast_S512_S512x1_0 : S512.BroadcastsInDim S512x1 (![0] : Fin 1 → Fin S512x1.rank)
  bcast_S_S512x1 : S_.BroadcastsInDim S512x1 (![] : Fin 0 → Fin S512x1.rank)
  transposes_S512x256_S256x512_1_0 : S512x256.Transposes [1, 0] S256x512
  transposes_S512x1_S1x512_1_0 : S512x1.Transposes [1, 0] S1x512
  bcast_S131072x1_S131072x512_0_1 : S131072x1.BroadcastsInDim S131072x512 (![0, 1] : Fin 2 → Fin S131072x512.rank)
  bcast_S1x512_S131072x512_0_1 : S1x512.BroadcastsInDim S131072x512 (![0, 1] : Fin 2 → Fin S131072x512.rank)
  reducesTo_S131072x512_S131072_d1 : S131072x512.ReducesTo [1] S131072
  bcast_S_S131072 : S_.BroadcastsInDim S131072 (![] : Fin 0 → Fin S131072.rank)
  bcast_S_S131072x512 : S_.BroadcastsInDim S131072x512 (![] : Fin 0 → Fin S131072x512.rank)
  dot_S131072x256_S256x512_S131072x512_1_0_0_1_n_n_wf : DotDims.WF S131072x256 S256x512 S131072x512 [1] [0] [0] [1] [] []
  dot_S131072x512_S512x256_S131072x256_1_0_0_1_n_n_wf : DotDims.WF S131072x512 S512x256 S131072x256 [1] [0] [0] [1] [] []

variable [Facts₀]

def dot_S131072x256_S256x512_S131072x512_1_0_0_1_n_n : DotDims S131072x256 S256x512 S131072x512 where
  lhsContracting := [1]
  rhsContracting := [0]
  lhsNonContracting := [0]
  rhsNonContracting := [1]
  lhsBatch := []
  rhsBatch := []
  wf := dot_S131072x256_S256x512_S131072x512_1_0_0_1_n_n_wf
def dot_S131072x512_S512x256_S131072x256_1_0_0_1_n_n : DotDims S131072x512 S512x256 S131072x256 where
  lhsContracting := [1]
  rhsContracting := [0]
  lhsNonContracting := [0]
  rhsNonContracting := [1]
  lhsBatch := []
  rhsBatch := []
  wf := dot_S131072x512_S512x256_S131072x256_1_0_0_1_n_n_wf

class Facts : Prop extends Facts₀ where

variable [Facts]
-- ==== Proof.Spec.lean ====
/-
  The function both programs compute, stated once, one input row at a time.

  A row `x` of the input (`D` features) is compared with each of the `M` memory slots `w j` by the cosine of
  their angle, with both Euclidean norms floored at the f32 word of 1e-8: the score.  The scores of a row go through
  a softmax (shifted by the row's largest score), each softmax value `a` is hard-shrunk,
  `max (a - λ) 0 · a / (|a - λ| + ε)`, the shrunk values are divided by their absolute sum floored at `ε`: the
  addressing weights.  The read-out of the row is the weights' combination of the slots.  Everything is on the
  extended reals, with the operations of the ideal instance; the five float words are kept as words, the same on
  both sides.
-/
import Idealize.ShloMosaic.PureOps.Ideal
import Idealize.ShloMosaic.Lib.ValueIdx

noncomputable section

namespace Cert.ShrinkAddress

open Idealize.ShloMosaic Idealize.ShloMosaic.ValueIdx

/-- The floor of both norms: the f32 word of 1e-8. -/
abbrev normFloor : EReal := Ideal.ofBits .f32 0x322BCC77#32
/-- The shrinkage threshold λ: the f32 word of 0.0025. -/
abbrev threshold : EReal := Ideal.ofBits .f32 0x3B23D70A#32
/-- The ε of the shrinkage and of the L1 normalisation: the f32 word of 1e-12. -/
abbrev tiny : EReal := Ideal.ofBits .f32 0x2B8CBCCC#32
/-- The word of -∞, from which a row's maximum is folded. -/
abbrev bottom : EReal := Ideal.ofBits .f32 0xFF800000#32
/-- The word of 0, against which the rectifier compares. -/
abbrev zeroWord : EReal := Ideal.ofBits .f32 0x00000000#32

variable {D M R : ℕ}

/-- The Euclidean norm of a vector, floored. -/
def flooredNorm (v : Fin D → EReal) : EReal := max (Ideal.sqrt (∑ d, v d * v d)) normFloor

section Row

variable (x : Fin D → EReal) (w : Fin M → Fin D → EReal) (wn : Fin M → EReal)

/-- The score of slot `j`: the inner product over the product of the floored norms (`wn` the slots'). -/
def score (j : Fin M) : EReal := Ideal.div (∑ d, x d * w j d) (flooredNorm x * wn j)

/-- The row's largest score. -/
def top : EReal := max bottom (Finset.fold max bottom (score x w wn) Finset.univ)

/-- The shifted exponential of a score. -/
def expo (j : Fin M) : EReal := Ideal.exp (score x w wn j - top x w wn)

/-- The softmax of the scores. -/
def soft (j : Fin M) : EReal := Ideal.div (expo x w wn j) (∑ k, expo x w wn k)

/-- The hard-shrunk softmax value. -/
def shrunk (j : Fin M) : EReal :=
  Ideal.div (max (soft x w wn j - threshold) zeroWord * soft x w wn j)
    (max (soft x w wn j - threshold) (-(soft x w wn j - threshold)) + tiny)

/-- The absolute sum of the shrunk values, floored. -/
def mass : EReal := max (∑ k, max (shrunk x w wn k) (-(shrunk x w wn k))) tiny

/-- The addressing weight of slot `j`. -/
def weight (j : Fin M) : EReal := Ideal.div (shrunk x w wn j) (mass x w wn)

/-- The read-out: the weights' combination of the slots, at feature `d`. -/
def readout (d : Fin D) : EReal := ∑ j, weight x w wn j * w j d

end Row

/-! ## The three result arrays, as functions of the two argument arrays -/

/-- Row `r` of a matrix. -/
def rowOf (X : (⟨2, ![R, D]⟩ : Shape).Idx → EReal) (r : Fin R) : Fin D → EReal := fun d => X (ix2 r d)

/-- The slots of the memory matrix. -/
def slots (W : (⟨2, ![M, D]⟩ : Shape).Idx → EReal) : Fin M → Fin D → EReal := fun j d => W (ix2 j d)

/-- The slots' floored norms. -/
def slotNorms (W : (⟨2, ![M, D]⟩ : Shape).Idx → EReal) : Fin M → EReal := fun j => flooredNorm (slots W j)

/-- The scores of every row. -/
def scores (X : (⟨2, ![R, D]⟩ : Shape).Idx → EReal) (W : (⟨2, ![M, D]⟩ : Shape).Idx → EReal) :
    (⟨2, ![R, M]⟩ : Shape).Idx → EReal :=
  fun i => score (rowOf X (i 0)) (slots W) (slotNorms W) (i 1)

/-- The addressing weights of every row. -/
def weights (X : (⟨2, ![R, D]⟩ : Shape).Idx → EReal) (W : (⟨2, ![M, D]⟩ : Shape).Idx → EReal) :
    (⟨2, ![R, M]⟩ : Shape).Idx → EReal :=
  fun i => weight (rowOf X (i 0)) (slots W) (slotNorms W) (i 1)

/-- The read-outs of every row. -/
def readouts (X : (⟨2, ![R, D]⟩ : Shape).Idx → EReal) (W : (⟨2, ![M, D]⟩ : Shape).Idx → EReal) :
    (⟨2, ![R, D]⟩ : Shape).Idx → EReal :=
  fun i => readout (rowOf X (i 0)) (slots W) (slotNorms W) (i 1)

theorem scores_ix2 (X : (⟨2, ![R, D]⟩ : Shape).Idx → EReal) (W : (⟨2, ![M, D]⟩ : Shape).Idx → EReal) (r : Fin R) (j : Fin M) :
    scores X W (ix2 r j) = score (rowOf X r) (slots W) (slotNorms W) j := rfl

theorem weights_ix2 (X : (⟨2, ![R, D]⟩ : Shape).Idx → EReal) (W : (⟨2, ![M, D]⟩ : Shape).Idx → EReal) (r : Fin R) (j : Fin M) :
    weights X W (ix2 r j) = weight (rowOf X r) (slots W) (slotNorms W) j := rfl

theorem readouts_ix2 (X : (⟨2, ![R, D]⟩ : Shape).Idx → EReal) (W : (⟨2, ![M, D]⟩ : Shape).Idx → EReal) (r : Fin R) (d : Fin D) :
    readouts X W (ix2 r d) = readout (rowOf X r) (slots W) (slotNorms W) d := rfl

/-- The absolute value of the ideal instance is `max a (-a)`. -/
theorem absf_eq (a : EReal) : FloatOps.absf (F := Ideal) (φ := .f32) a = max a (-a) := rfl

end Cert.ShrinkAddress

end
-- ==== Proof.LibKeepdims.lean ====
/-
  Two layout operations read at an index written by coordinates, the pair a reduction with kept dimensions
  goes through on its way back over the reduced axis: a vector `[a]` cast to a column `[a, 1]`, and a
  column `[a, 1]` broadcast along the rows of `[a, b]`. General lemmas: any element type, any extents.
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(i, j)`, the column's entry `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibKeepdims
-- ==== Proof.LibPlainDot.lean ====
/-
  A plain matrix product read at an entry, at the ideal instance.

  For dimension numbers that contract the left operand's columns with the right operand's rows and have no batch
  axis (`DotDims.plain m k n`), both the kernel's product into a zero accumulator and the host's `dot_general` are,
  at entry `(p, j)`, the sum over `q < k` of `l (p, q) · r (q, j)` on the extended reals.  Stated for any record
  equal to the plain one, so that each printed record (a `def` of its own) can be cited by `rfl`.
-/
import Idealize.ShloMosaic.Lib.ValueIdx
import Idealize.ShloMosaic.PureOps.Ideal.Laws

noncomputable section

namespace Cert.PlainDot

open Idealize.ShloMosaic Idealize.ShloMosaic.ValueIdx

variable {m k n : Nat} {φ₁ φ₂ : FTy}

/-- The sum over the one contraction axis of a plain product, re-indexed by `Fin k`, with the operand indices at an
    output entry `(p, j)` written by coordinates. -/
theorem sum_plain (l : (⟨2, ![m, k]⟩ : Shape).Idx → EReal) (r : (⟨2, ![k, n]⟩ : Shape).Idx → EReal) (p : Fin m) (j : Fin n) :
    (∑ q : (DotDims.plain m k n).contr.Idx, l ((DotDims.plain m k n).lhsIdx (ix2 p j) q) * r ((DotDims.plain m k n).rhsIdx (ix2 p j) q))
      = ∑ q : Fin k, l (ix2 p q) * r (ix2 q j) := by
  rw [← Equiv.sum_comp (contrEquiv1 (DotDims.plain m k n) k rfl rfl).symm]
  refine Finset.sum_congr rfl fun q _ => ?_
  have hq := contrEquiv1_symm_val (DotDims.plain m k n) k rfl rfl q
  have el : (DotDims.plain m k n).lhsIdx (ix2 p j) ((contrEquiv1 (DotDims.plain m k n) k rfl rfl).symm q) = ix2 p q :=
    funext fun a => Fin.ext (by
      match a with
      | ⟨0, _⟩ => rfl
      | ⟨1, _⟩ => exact ((DotDims.plain m k n).lhsIdx_val_of_single rfl _ _).trans hq)
  have er : (DotDims.plain m k n).rhsIdx (ix2 p j) ((contrEquiv1 (DotDims.plain m k n) k rfl rfl).symm q) = ix2 q j :=
    funext fun a => Fin.ext (by
      match a with
      | ⟨0, _⟩ => exact ((DotDims.plain m k n).rhsIdx_val_of_single rfl _ _).trans hq
      | ⟨1, _⟩ => rfl)
  rw [el, er]

/-- The kernel's product into the zero splat, at entry `(p, j)`. -/
theorem matmul_zero_ix2 (D : DotDims ⟨2, ![m, k]⟩ ⟨2, ![k, n]⟩ ⟨2, ![m, n]⟩) (hD : D = DotDims.plain m k n)
    (prec : Option ContractPrecision) (l : FVec Ideal ⟨2, ![m, k]⟩ φ₁) (r : FVec Ideal ⟨2, ![k, n]⟩ φ₂) (p : Fin m) (j : Fin n) :
    matmul D prec l r (constant (F := Ideal) ⟨2, ![m, n]⟩ .f32 0x00000000#32) (ix2 p j) = ∑ q : Fin k, l (ix2 p q) * r (ix2 q j) := by
  subst hD
  simp only [matmul]
  rw [Ideal.matmul_constant_zero_apply]
  exact sum_plain l r p j

/-- The host's `dot_general`, at entry `(p, j)`. -/
theorem dotGeneral_ix2 (D : DotDims ⟨2, ![m, k]⟩ ⟨2, ![k, n]⟩ ⟨2, ![m, n]⟩) (hD : D = DotDims.plain m k n)
    (prec : Option ContractPrecision) (l : FVec Ideal ⟨2, ![m, k]⟩ φ₁) (r : FVec Ideal ⟨2, ![k, n]⟩ φ₂) (p : Fin m) (j : Fin n) :
    Host.dotGeneral D prec l r (ix2 p j) = ∑ q : Fin k, l (ix2 p q) * r (ix2 q j) := by
  subst hD
  simp only [Host.dotGeneral]
  rw [Ideal.dotGeneral_apply]
  exact sum_plain l r p j

end Cert.PlainDot

end
-- ==== Proof.LibRank3.lean ====
/-
  Layout operations and one-axis reductions of rank-3 arrays read at an index written by coordinates.

  A reduction of `[a, b, c]` over its middle or its last axis with kept dimensions comes back over the reduced
  axis through a cast to `[a, 1, c]` (or `[a, b, 1]`) and a broadcast to `[a, b, c]`; the same two steps carry a
  matrix `[a, b]` along a new last axis (`[a, b] → [a, b, 1] → [a, b, c]`) or along a new middle axis
  (`[a, c] → [a, 1, c] → [a, b, c]`). Each is read here at `(i, j, k)`. The reductions: at the ideal values a sum
  over one axis is the `Fin`-indexed sum over that axis's coordinates, and a maximum over the last axis of a matrix
  is the fold of `max` over them. General lemmas: any extents.
-/
import Idealize.ShloMosaic.Lib.Pipeline.Value
import Idealize.ShloMosaic.Lib.ValueIdx
import Idealize.ShloMosaic.PureOps.Ideal.Laws

namespace Cert.LibRank3

open Idealize.ShloMosaic Idealize.ShloMosaic.ValueIdx

variable {α : Type}

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A matrix carried along a new last axis: `[a, b] → [a, b, 1] → [a, b, c]` at `(i, j, k)` is the matrix at `(i, j)`. -/
theorem keepLast_apply {a b c : ℕ} (x : (⟨2, ![a, b]⟩ : Shape).Idx → α)
    (h : (⟨2, ![a, b]⟩ : Shape).ShapeCasts ⟨3, ![a, b, 1]⟩) (h' : (⟨3, ![a, b, 1]⟩ : Shape).Broadcasts ⟨3, ![a, b, c]⟩)
    (i : Fin a) (j : Fin b) (k : Fin c) :
    broadcastTo ⟨3, ![a, b, c]⟩ (shapeCast ⟨3, ![a, b, 1]⟩ x h) h' (ix3 i j k) = x (ix2 i j) :=
  (broadcastTo_ab1_abc_apply _ h' i j k).trans (shapeCast_ab_ab1_apply x h i j 0)

/-- An `[a, c]` array cast to `[a, 1, c]` reads, at `(i, u, k)`, the operand at `(i, k)`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- An `[a, 1, c]` array broadcast to `[a, b, c]` reads, at `(i, j, k)`, the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A matrix carried along a new middle axis: `[a, c] → [a, 1, c] → [a, b, c]` at `(i, j, k)` is the matrix at `(i, k)`. -/
theorem keepMid_apply {a b c : ℕ} (x : (⟨2, ![a, c]⟩ : Shape).Idx → α)
    (h : (⟨2, ![a, c]⟩ : Shape).ShapeCasts ⟨3, ![a, 1, c]⟩) (h' : (⟨3, ![a, 1, c]⟩ : Shape).Broadcasts ⟨3, ![a, b, c]⟩)
    (i : Fin a) (j : Fin b) (k : Fin c) :
    broadcastTo ⟨3, ![a, b, c]⟩ (shapeCast ⟨3, ![a, 1, c]⟩ x h) h' (ix3 i j k) = x (ix2 i k) :=
  (broadcastTo_a1c_abc_apply _ h' i j k).trans (shapeCast_ac_a1c_apply x h i 0 k)

/-! ## One-axis reductions at the ideal values, at coordinates -/

variable {φ : FTy}

/-- The sum of an `[a, b]` matrix over its last axis, at row `i`. -/
theorem sum_last2 {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ j : Fin b, src (ix2 i j) :=
  (Ideal.multiReduction_add_single src acc h hφ hacc (ix1 i)).trans
    (Finset.sum_congr rfl fun j _ => congrArg src (funext fun d => Fin.ext (by
      match d with | ⟨0, _⟩ => rfl | ⟨1, _⟩ => rfl)))

/-- The maximum of an `[a, b]` matrix over its last axis, at row `i`: the fold of `max` from the accumulator's value. -/
theorem max_last2 {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun j => src (ix2 i j)) :=
  (Ideal.multiReduction_maximumf_single src acc h hφ hacc (ix1 i)).trans
    (congrArg (Finset.fold max (Ideal.ofBits φ acc) · (Finset.univ : Finset (Fin b)))
      (funext fun j => congrArg src (funext fun d => Fin.ext (by
        match d with | ⟨0, _⟩ => rfl | ⟨1, _⟩ => rfl))))

/-- The sum of an `[a, b, c]` array over its middle axis, at `(i, k)`. -/
theorem sum_mid3 {a b c : ℕ} (src : FVec Ideal ⟨3, ![a, b, c]⟩ φ) (acc : BitVec φ.bits)
    (h : (⟨3, ![a, b, c]⟩ : Shape).Reduces [1] ⟨2, ![a, c]⟩) (hφ : FKind.Formats φ) (hacc : acc = FKind.add.neutral φ hφ)
    (i : Fin a) (k : Fin c) :
    multiReduction .add [1] ⟨2, ![a, c]⟩ src acc h hφ hacc (ix2 i k) = ∑ j : Fin b, src (ix3 i j k) :=
  (Ideal.multiReduction_add_single src acc h hφ hacc (ix2 i k)).trans
    (Finset.sum_congr rfl fun j _ => congrArg src (funext fun d => Fin.ext (by
      match d with | ⟨0, _⟩ => rfl | ⟨1, _⟩ => rfl | ⟨2, _⟩ => rfl)))

/-- The sum of an `[a, b, c]` array over its last axis, at `(i, j)`. -/
theorem sum_last3 {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (j : Fin b) :
    multiReduction .add [2] ⟨2, ![a, b]⟩ src acc h hφ hacc (ix2 i j) = ∑ k : Fin c, src (ix3 i j k) :=
  (Ideal.multiReduction_add_single src acc h hφ hacc (ix2 i j)).trans
    (Finset.sum_congr rfl fun k _ => congrArg src (funext fun d => Fin.ext (by
      match d with | ⟨0, _⟩ => rfl | ⟨1, _⟩ => rfl | ⟨2, _⟩ => rfl)))

end Cert.LibRank3
-- ==== Proof.KernelRows.lean ====
/-
  The kernel body's four values, read at coordinates, are the specification's row functions.

  The body loads a block `P0` of 1024 input rows, the whole memory matrix `P1` and the row `P2` of the slots'
  floored norms.  Row `p` of each value depends on row `p` of `P0` only: the scores are the inner products over
  the products of norms, the softmax, the shrinkage and the L1 division are taken along the row, and the read-out is
  the product of the weights' row with the memory matrix.  Each reduction over a row is read as a sum (or a fold of
  `max`) over the 512 slots or the 256 features, and each kept-dimension column is read back along the row.
-/
import proofs.«109881_j46712064311890_1_alg».proof.Proof.Gen.KernelIdeal.Skeleton
import proofs.«109881_j46712064311890_1_alg».proof.Proof.Spec
import proofs.«109881_j46712064311890_1_alg».proof.Proof.LibKeepdims
import proofs.«109881_j46712064311890_1_alg».proof.Proof.LibPlainDot
import proofs.«109881_j46712064311890_1_alg».proof.Proof.LibRank3
import Idealize.ShloMosaic.Lib.ValueIdx
import Idealize.ShloMosaic.Lib.Pipeline.Value
import Idealize.ShloMosaic.PureOps.Ideal.Laws

noncomputable section

namespace Cert.KernelRows

open Idealize.ShloMosaic Idealize.ShloMosaic.ValueIdx Cert.KernelIdeal Cert.KernelIdeal.Gen Cert.ShrinkAddress

/-! ## Pointwise operations the value library does not read at an index -/

theorem sqrt_apply {s : Shape} {φ : FTy} (a : FVec Ideal s φ) (i : s.Idx) : sqrt a i = Ideal.sqrt (a i) := rfl
theorem exp_apply {s : Shape} {φ : FTy} (a : FVec Ideal s φ) (i : s.Idx) : exp a i = Ideal.exp (a i) := rfl
theorem absf_apply {s : Shape} {φ : FTy} (a : FVec Ideal s φ) (i : s.Idx) : absf a i = max (a i) (-(a i)) := rfl

variable (P0 : FVec Ideal S1024x256 .f32) (P1 : FVec Ideal S512x256 .f32) (P2 : FVec Ideal S1x512 .f32)

/-- The slots' norms as the body finds them: the loaded row. -/
def loadedNorms : Fin 512 → EReal := fun j => P2 (ix2 (0 : Fin 1) j)

/-! ## The scores -/

/-- The product of the block with the transpose of the memory matrix (both contracted along the features), at
    `(p, j)`, is the inner product of row `p` with slot `j`. -/
theorem inner_apply (l : FVec Ideal S1024x256 .bf16) (r : FVec Ideal S512x256 .bf16) (p : Fin 1024) (j : Fin 512) :
    matmul dot_S1024x256_S512x256_S1024x512_1_1_0_0_n_n none l r (constant (F := Ideal) S1024x512 .f32 0x00000000#32) (ix2 p j)
      = ∑ d : Fin 256, l (ix2 p d) * r (ix2 j d) := by
  simp only [matmul]
  rw [Ideal.matmul_constant_zero_apply,
    ← Equiv.sum_comp (contrEquiv1 dot_S1024x256_S512x256_S1024x512_1_1_0_0_n_n 256 rfl rfl).symm]
  refine Finset.sum_congr rfl fun d _ => ?_
  have hd := contrEquiv1_symm_val dot_S1024x256_S512x256_S1024x512_1_1_0_0_n_n 256 rfl rfl d
  have el : dot_S1024x256_S512x256_S1024x512_1_1_0_0_n_n.lhsIdx (ix2 p j)
      ((contrEquiv1 dot_S1024x256_S512x256_S1024x512_1_1_0_0_n_n 256 rfl rfl).symm d) = ix2 p d :=
    funext fun a => Fin.ext (by
      match a with
      | ⟨0, _⟩ => rfl
      | ⟨1, _⟩ => exact (dot_S1024x256_S512x256_S1024x512_1_1_0_0_n_n.lhsIdx_val_of_single rfl _ _).trans hd)
  have er : dot_S1024x256_S512x256_S1024x512_1_1_0_0_n_n.rhsIdx (ix2 p j)
      ((contrEquiv1 dot_S1024x256_S512x256_S1024x512_1_1_0_0_n_n 256 rfl rfl).symm d) = ix2 j d :=
    funext fun a => Fin.ext (by
      match a with
      | ⟨0, _⟩ => rfl
      | ⟨1, _⟩ => exact (dot_S1024x256_S512x256_S1024x512_1_1_0_0_n_n.rhsIdx_val_of_single rfl _ _).trans hd)
  rw [el, er]

/-- The floored norm of row `p`, carried along the row. -/
theorem rowNorm_apply (p : Fin 1024) (j : Fin 512) :
    broadcastTo S1024x512
      (maximumf (sqrt (shapeCast S1024x1 (multiReduction .add [1] S1024 (mulf P0 P0) 0x00000000#32 reduces_S1024x256_S1024 (.inl rfl) rfl) shapeCasts_S1024_S1024x1))
        (broadcast S1024x1 (Scalar.ofBits (F := Ideal) .f32 0x322BCC77#32)))
      broadcasts_S1024x1_S1024x512 (ix2 p j) = flooredNorm (rowOf P0 p) := by
  refine (Cert.LibKeepdims.broadcastTo_a1_ab_apply _ _ p j).trans ?_
  show max (Ideal.sqrt (shapeCast S1024x1 (multiReduction .add [1] S1024 (mulf P0 P0) 0x00000000#32 reduces_S1024x256_S1024 (.inl rfl) rfl) shapeCasts_S1024_S1024x1 (ix2 p (0 : Fin 1)))) normFloor = _
  rw [Cert.LibKeepdims.shapeCast_a_a1_apply]
  exact congrArg (fun z => max (Ideal.sqrt z) normFloor)
    (Cert.LibRank3.sum_last2 (mulf P0 P0) 0x00000000#32 reduces_S1024x256_S1024 (.inl rfl) rfl p)

/-- The loaded row of slot norms, carried down the rows. -/
theorem slotNorm_apply (p : Fin 1024) (j : Fin 512) :
    broadcastTo S1024x512 (shapeCast S1x512 P2 shapeCasts_S1x512_S1x512) broadcasts_S1x512_S1024x512 (ix2 p j)
      = loadedNorms P2 j := by
  refine (broadcastTo_apply _ _ (ix2 p j) (ix2 (0 : Fin 1) j) fun ax => ?_).trans ?_
  · match ax with
    | ⟨0, _⟩ => rfl
    | ⟨1, _⟩ => rfl
  · rw [shapeCast_self]; rfl

/-- The body's scores at `(p, j)`. -/
theorem scores_apply (p : Fin 1024) (j : Fin 512) :
    k0_pay4 (F := Ideal) P0 P1 P2 (ix2 p j) = score (rowOf P0 p) (slots P1) (loadedNorms P2) j := by
  unfold k0_pay4 k0_pay3
  refine (divf_apply _ _ (ix2 p j)).trans ?_
  unfold score
  refine congrArg₂ Ideal.div ?_ ?_
  · exact inner_apply _ _ p j
  · refine (mulf_apply _ _ (ix2 p j)).trans ?_
    rw [rowNorm_apply P0 p j, slotNorm_apply P2 p j]

/-! ## Along a row: the softmax, the shrinkage, the L1 division

Each stage is stated for an arbitrary block whose row `p` is the previous stage's row function, so no stage opens
the one before it. -/

section Stages

variable {D' : ℕ} (x : Fin D' → EReal) (w : Fin 512 → Fin D' → EReal) (wn : Fin 512 → EReal) (p : Fin 1024)

/-- A vector of one value per row, cast to a column and carried along the row, reads the row's value. -/
theorem keep_apply (v : FVec Ideal S1024 .f32) (j : Fin 512) :
    broadcastTo S1024x512 (shapeCast S1024x1 v shapeCasts_S1024_S1024x1) broadcasts_S1024x1_S1024x512 (ix2 p j) = v (ix1 p) :=
  (Cert.LibKeepdims.broadcastTo_a1_ab_apply _ _ p j).trans (Cert.LibKeepdims.shapeCast_a_a1_apply v _ p 0)

/-- The row's largest score: the fold of `max` over the slots, from -∞ and compared with -∞ once more. -/
theorem top_apply (S : FVec Ideal S1024x512 .f32) (hS : ∀ j, S (ix2 p j) = score x w wn j) :
    maximumf (broadcast S1024 (Scalar.ofBits (F := Ideal) .f32 0xFF800000#32))
      (multiReduction .maximumf [1] S1024 S 0xFF800000#32 reduces_S1024x512_S1024 (.inl rfl) rfl) (ix1 p) = top x w wn := by
  show max bottom (multiReduction .maximumf [1] S1024 S 0xFF800000#32 reduces_S1024x512_S1024 (.inl rfl) rfl (ix1 p)) = _
  unfold top
  refine congrArg (max bottom) ?_
  refine (Cert.LibRank3.max_last2 S 0xFF800000#32 reduces_S1024x512_S1024 (.inl rfl) rfl p).trans ?_
  exact congrArg (fun f => Finset.fold max bottom f Finset.univ) (funext hS)

/-- The shifted exponentials. -/
theorem expo_apply (S : FVec Ideal S1024x512 .f32) (T : FVec Ideal S1024 .f32) (hS : ∀ j, S (ix2 p j) = score x w wn j)
    (hT : T (ix1 p) = top x w wn) (j : Fin 512) :
    exp (subf S (broadcastTo S1024x512 (shapeCast S1024x1 T shapeCasts_S1024_S1024x1) broadcasts_S1024x1_S1024x512)) (ix2 p j)
      = expo x w wn j := by
  show Ideal.exp (S (ix2 p j) - broadcastTo S1024x512 (shapeCast S1024x1 T shapeCasts_S1024_S1024x1) broadcasts_S1024x1_S1024x512 (ix2 p j)) = _
  rw [keep_apply, hS, hT]
  rfl

/-- The softmax: each exponential over the row's sum of them. -/
theorem soft_apply (E : FVec Ideal S1024x512 .f32) (hE : ∀ j, E (ix2 p j) = expo x w wn j) (j : Fin 512) :
    divf E (broadcastTo S1024x512 (shapeCast S1024x1
        (multiReduction .add [1] S1024 E 0x00000000#32 reduces_S1024x512_S1024 (.inl rfl) rfl) shapeCasts_S1024_S1024x1)
      broadcasts_S1024x1_S1024x512) (ix2 p j) = soft x w wn j := by
  refine (divf_apply _ _ (ix2 p j)).trans ?_
  rw [keep_apply, hE]
  unfold soft
  refine congrArg (Ideal.div (expo x w wn j)) ?_
  refine (Cert.LibRank3.sum_last2 E 0x00000000#32 reduces_S1024x512_S1024 (.inl rfl) rfl p).trans ?_
  exact Finset.sum_congr rfl fun k _ => hE k

/-- The hard shrinkage, entry by entry. -/
theorem shrunk_apply (A : FVec Ideal S1024x512 .f32) (hA : ∀ j, A (ix2 p j) = soft x w wn j) (j : Fin 512) :
    divf (mulf (maximumf (subf A (broadcast S1024x512 (Scalar.ofBits (F := Ideal) .f32 0x3B23D70A#32)))
          (broadcast S1024x512 (Scalar.ofBits (F := Ideal) .f32 0x00000000#32))) A)
      (addf (absf (subf A (broadcast S1024x512 (Scalar.ofBits (F := Ideal) .f32 0x3B23D70A#32))))
          (broadcast S1024x512 (Scalar.ofBits (F := Ideal) .f32 0x2B8CBCCC#32))) (ix2 p j) = shrunk x w wn j := by
  show Ideal.div (max (A (ix2 p j) - threshold) zeroWord * A (ix2 p j))
    (max (A (ix2 p j) - threshold) (-(A (ix2 p j) - threshold)) + tiny) = _
  rw [hA]
  rfl

/-- The floored absolute sum of the shrunk row, as the column entry of row `p`. -/
theorem mass_apply (B : FVec Ideal S1024x512 .f32) (hB : ∀ j, B (ix2 p j) = shrunk x w wn j) :
    maximumf (shapeCast S1024x1 (multiReduction .add [1] S1024 (absf B) 0x00000000#32 reduces_S1024x512_S1024 (.inl rfl) rfl)
        shapeCasts_S1024_S1024x1) (broadcast S1024x1 (Scalar.ofBits (F := Ideal) .f32 0x2B8CBCCC#32)) (ix2 p (0 : Fin 1))
      = mass x w wn := by
  show max (shapeCast S1024x1 (multiReduction .add [1] S1024 (absf B) 0x00000000#32 reduces_S1024x512_S1024 (.inl rfl) rfl)
        shapeCasts_S1024_S1024x1 (ix2 p (0 : Fin 1))) tiny = _
  rw [Cert.LibKeepdims.shapeCast_a_a1_apply]
  unfold mass
  refine congrArg (max · tiny) ?_
  refine (Cert.LibRank3.sum_last2 (absf B) 0x00000000#32 reduces_S1024x512_S1024 (.inl rfl) rfl p).trans ?_
  refine Finset.sum_congr rfl fun k _ => ?_
  show max (B (ix2 p k)) (-(B (ix2 p k))) = _
  rw [hB]

/-- The addressing weights: the shrunk row over its floored absolute sum. -/
theorem weight_apply (B : FVec Ideal S1024x512 .f32) (L : FVec Ideal S1024x1 .f32) (hB : ∀ j, B (ix2 p j) = shrunk x w wn j)
    (hL : L (ix2 p (0 : Fin 1)) = mass x w wn) (j : Fin 512) :
    k0_pay1 (F := Ideal) B L (ix2 p j) = weight x w wn j := by
  unfold k0_pay1
  refine (divf_apply _ _ (ix2 p j)).trans ?_
  rw [Cert.LibKeepdims.broadcastTo_a1_ab_apply, hB, hL]
  rfl

end Stages

/-! ## The body's values -/

/-- The shrunk softmax of the block's rows. -/
theorem shrunkBlock_apply (p : Fin 1024) (j : Fin 512) :
    k0_pay5 (F := Ideal) P0 P1 P2 (ix2 p j) = shrunk (rowOf P0 p) (slots P1) (loadedNorms P2) j := by
  unfold k0_pay5
  exact shrunk_apply _ _ _ p _ (fun j => soft_apply _ _ _ p _ (fun j => expo_apply _ _ _ p _ _
    (fun j => scores_apply P0 P1 P2 p j) (top_apply _ _ _ p _ (fun j => scores_apply P0 P1 P2 p j)) j) j) j

/-- The floored absolute sums of the block's rows. -/
theorem massBlock_apply (p : Fin 1024) :
    k0_pay6 (F := Ideal) P0 P1 P2 (ix2 p (0 : Fin 1)) = mass (rowOf P0 p) (slots P1) (loadedNorms P2) := by
  unfold k0_pay6
  exact mass_apply _ _ _ p _ (fun j => shrunkBlock_apply P0 P1 P2 p j)

/-- The addressing weights of the block's rows. -/
theorem weightBlock_apply (p : Fin 1024) (j : Fin 512) :
    k0_pay1 (F := Ideal) (k0_pay5 P0 P1 P2) (k0_pay6 P0 P1 P2) (ix2 p j)
      = weight (rowOf P0 p) (slots P1) (loadedNorms P2) j :=
  weight_apply _ _ _ p _ _ (fun j => shrunkBlock_apply P0 P1 P2 p j) (massBlock_apply P0 P1 P2 p) j

/-- The read-outs of the block's rows: the weights' rows times the memory matrix. -/
theorem readoutBlock_apply (p : Fin 1024) (d : Fin 256) :
    k0_pay2 (F := Ideal) (k0_pay3 P1) (k0_pay5 P0 P1 P2) (k0_pay6 P0 P1 P2) (ix2 p d)
      = readout (rowOf P0 p) (slots P1) (loadedNorms P2) d := by
  unfold k0_pay2 k0_pay3
  refine (Cert.PlainDot.matmul_zero_ix2 dot_S1024x512_S512x256_S1024x256_1_0_0_1_n_n rfl none _ _ p d).trans ?_
  unfold readout
  refine Finset.sum_congr rfl fun j _ => ?_
  show k0_pay1 (F := Ideal) (k0_pay5 P0 P1 P2) (k0_pay6 P0 P1 P2) (ix2 p j) * P1 (ix2 j d) = _
  rw [weightBlock_apply]
  rfl

end Cert.KernelRows

end
-- ==== Proof.HostNorms.lean ====
/-
  The row of slot norms the kernel's program computes on the host before the region: the memory matrix squared
  entry by entry, summed along the features from the word of zero, carried to a column, its square root floored at the
  word of 1e-8, and the column re-laid as one row.  Read at `(0, j)` it is the floored norm of slot `j`.
-/
import proofs.«109881_j46712064311890_1_alg».proof.Proof.Gen.KernelIdeal
import proofs.«109881_j46712064311890_1_alg».proof.Proof.Spec
import Idealize.ShloMosaic.Lib.ValueIdx
import Idealize.ShloMosaic.Lib.Pipeline.Value
import Idealize.ShloMosaic.PureOps.Ideal.Laws

noncomputable section

namespace Cert.HostNorms

open Idealize.ShloMosaic Idealize.ShloMosaic.ValueIdx Cert.KernelIdeal Cert.KernelIdeal.Gen Cert.ShrinkAddress

/-- The host's term for the norm row, of the memory matrix. -/
def normRow (W : FVec Ideal S512x256 .f32) : FVec Ideal S1x512 .f32 :=
  shapeCast S1x512
    (maximumf (Host.sqrt (F := Ideal) (broadcastInDim S512x1 ![0] bcast_S512_S512x1_0
        (Host.reduceAdd (F := Ideal) (mulf W W) (constant (F := Ideal) S_ .f32 0x00000000#32) reducesTo_S512x256_S512_d1 h_S_)))
      (broadcastInDim S512x1 ![] bcast_S_S512x1 (constant (F := Ideal) S_ .f32 0x322BCC77#32)))
    shapeCasts_S512x1_S1x512

/-- The sum of squares of slot `j`: the host's sum along the features starts from the word of zero, which is 0. -/
theorem sumSq_apply (W : FVec Ideal S512x256 .f32) (j : Fin 512) :
    Host.reduceAdd (F := Ideal) (mulf W W) (constant (F := Ideal) S_ .f32 0x00000000#32) reducesTo_S512x256_S512_d1 h_S_ (ix1 j)
      = ∑ d : Fin 256, W (ix2 j d) * W (ix2 j d) := by
  simp only [Host.reduceAdd, Ideal.hostReduceAdd_def]
  rw [Ideal.hostReduceAdd_single reducesTo_S512x256_S512_d1 (by decide)]
  show Ideal.ofBits .f32 0x00000000#32 + _ = _
  rw [Ideal.ofBits_zero_f32, zero_add]
  refine Finset.sum_congr rfl fun d _ => ?_
  exact congrArg (mulf W W) (funext fun a => Fin.ext (by match a with | ⟨0, _⟩ => rfl | ⟨1, _⟩ => rfl))

/-- The norm row at `(0, j)` is the floored norm of slot `j`. -/
theorem normRow_apply (W : FVec Ideal S512x256 .f32) (j : Fin 512) :
    normRow W (ix2 (0 : Fin 1) j) = slotNorms W j := by
  unfold normRow
  refine (shapeCast_apply _ _ (ix2 (0 : Fin 1) j) (ix2 j (0 : Fin 1)) (by
    rw [Shape.rowMajor_val_two, Shape.rowMajor_val_two]
    show j.val * 1 + 0 = 0 * 512 + j.val
    omega)).trans ?_
  show max (Ideal.sqrt (broadcastInDim S512x1 ![0] bcast_S512_S512x1_0
      (Host.reduceAdd (F := Ideal) (mulf W W) (constant (F := Ideal) S_ .f32 0x00000000#32) reducesTo_S512x256_S512_d1 h_S_)
      (ix2 j (0 : Fin 1)))) normFloor = _
  rw [broadcastInDim_apply _ _ _ (ix2 j (0 : Fin 1)) (ix1 j) (fun a => by
    match a with
    | ⟨0, _⟩ => rfl), sumSq_apply]
  rfl

end Cert.HostNorms

end
-- ==== Proof.KernelArray.lean ====
/-
  From blocks to arrays.

  The grid has 128 points; point `t` works on rows `1024·t … 1024·t + 1023` of the input and writes the same rows of
  each of the three results, while the memory matrix and the row of slot norms are read whole at every point.  Row `p`
  of what a point writes back is the specification's row function of input row `1024·t + p`, so each block is the
  restriction of ONE function of the two argument arrays; the 128 blocks tile each result, so each result array ends
  as that function.
-/
import proofs.«109881_j46712064311890_1_alg».proof.Proof.Gen.KernelIdeal.Value
import proofs.«109881_j46712064311890_1_alg».proof.Proof.KernelRows
import proofs.«109881_j46712064311890_1_alg».proof.Proof.HostNorms
import proofs.«109881_j46712064311890_1_alg».proof.Proof.Spec
import Idealize.ShloMosaic.Lib.StableHlo.Run

noncomputable section

namespace Cert.KernelArray

open Cert.KernelIdeal Cert.KernelIdeal.Gen Cert.KernelIdeal.Value Idealize.ShloMosaic Idealize.ShloMosaic.TcCoe Idealize.SL.Sem
open Idealize.ShloMosaic.ValueIdx Cert.ShrinkAddress Cert.KernelRows
open Idealize.ShloMosaic.Pipeline (Dat)

variable (m : (ℓ : Loc nD τ sig) → Buf (Elt Ideal) ℓ) (ρ : Dev nD → PrngReg)

/-- The input matrix as launched. -/
abbrev X (c : Dev nD) : S131072x256.Idx → EReal := m ((c : Thread nD τ).loc main_arg0)
/-- The memory matrix as launched. -/
abbrev W (c : Dev nD) : S512x256.Idx → EReal := m ((c : Thread nD τ).loc main_arg1)

theorem hz : (![0, 0] : Fin 2 → Nat) = fun _ => 0 := funext fun a => by fin_cases a <;> rfl

/-- The printed index maps, decided over the grid: the input's and the three results' block row is the point's
    number, their block column 0; the memory matrix and the norm row sit at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-! ## The input windows' blocks -/

/-- Row `p` of the input's block at point `t` is row `1024·t + p` of the input. -/
theorem block0_apply (c : Dev nD) (t : Fin cfg0.N) (p : Fin 1024) (d : Fin 256) (r : Fin 131072)
    (hr : r.val = t.val * 1024 + p.val) : iblk m c 0 t (ix2 p d) = X m c (ix2 r d) := by
  obtain ⟨e00, e01, -⟩ := idx_facts t
  refine Eq.trans ?_ (congrFun (V_main_arg0 m c) (ix2 r d))
  show V m c main_arg0 (((cfg0.win 0).blk t).view.emb (ix2 p d)) = V m c main_arg0 (ix2 r d)
  refine congrArg (V m c main_arg0) (funext fun a => Fin.ext ?_)
  match a with
  | ⟨0, _⟩ =>
    show win0_0.index t (0 : Fin 2) * 1024 + 1 * p.val = r.val
    omega
  | ⟨1, _⟩ =>
    show win0_0.index t (1 : Fin 2) * 256 + 1 * d.val = d.val
    omega

/-- The memory matrix's block at every point is the whole matrix. -/
theorem block1_apply (c : Dev nD) (t : Fin cfg0.N) (k : S512x256.Idx) : iblk m c 1 t k = W m c k := by
  obtain ⟨-, -, e10, e11, -⟩ := idx_facts t
  refine Eq.trans ?_ (congrFun (V_main_arg1 m c) k)
  show V m c main_arg1 (((cfg0.win 1).blk t).view.emb k) = V m c main_arg1 k
  refine congrArg (V m c main_arg1) (funext fun a => Fin.ext ?_)
  match a with
  | ⟨0, _⟩ =>
    show win0_1.index t (0 : Fin 2) * 512 + 1 * (k 0).val = (k 0).val
    omega
  | ⟨1, _⟩ =>
    show win0_1.index t (1 : Fin 2) * 256 + 1 * (k 1).val = (k 1).val
    omega

/-- The norm row as the region finds it: the host's term of the memory matrix. -/
theorem V_main_v6 (c : Dev nD) : (V m c main_v6 : S1x512.Idx → EReal) = Cert.HostNorms.normRow (W m c) := by
  dsimp only [V, hostOps0]
  after_results
  rfl

/-- The norm row's block at every point is the whole row: the slots' floored norms. -/
theorem norms_apply (c : Dev nD) (t : Fin cfg0.N) (j : Fin 512) :
    iblk m c 2 t (ix2 (0 : Fin 1) j) = slotNorms (W m c) j := by
  obtain ⟨-, -, -, -, e20, e21, -⟩ := idx_facts t
  refine Eq.trans ?_ ((congrFun (V_main_v6 m c) (ix2 (0 : Fin 1) j)).trans (Cert.HostNorms.normRow_apply (W m c) j))
  show V m c main_v6 (((cfg0.win 2).blk t).view.emb (ix2 (0 : Fin 1) j)) = V m c main_v6 (ix2 (0 : Fin 1) j)
  refine congrArg (V m c main_v6) (funext fun a => Fin.ext ?_)
  match a with
  | ⟨0, _⟩ =>
    show win0_2.index t (0 : Fin 2) * 1 + 1 * 0 = 0
    omega
  | ⟨1, _⟩ =>
    show win0_2.index t (1 : Fin 2) * 512 + 1 * j.val = j.val
    omega

/-! ## One entry of what a point leaves, over variables

`B0 B1 B2` stand for the three input blocks at a point, `y` for an index of the output block and `i` for the array
index under it: if row `y 0` of `B0` is row `i 0` of the input, `B1` the memory matrix and `B2` the slots' norms, the
body's value at `y` is the specification at `i`. -/

section Point

variable (B0 : FVec Ideal S1024x256 .f32) (B1 : FVec Ideal S512x256 .f32) (B2 : FVec Ideal S1x512 .f32)
  (Xa : S131072x256.Idx → EReal) (Wa : S512x256.Idx → EReal)

theorem rows_agree (p : Fin 1024) (r : Fin 131072)
    (h0 : ∀ d : Fin 256, B0 (ix2 p d) = Xa (ix2 r d)) (h1 : ∀ k, B1 k = Wa k)
    (h2 : ∀ j : Fin 512, B2 (ix2 (0 : Fin 1) j) = slotNorms Wa j) :
    rowOf B0 p = rowOf Xa r ∧ slots B1 = slots Wa ∧ loadedNorms B2 = slotNorms Wa :=
  ⟨funext h0, funext fun j => funext fun d => h1 (ix2 j d), funext h2⟩

theorem scores_point (y : S1024x512.Idx) (i : S131072x512.Idx)
    (h0 : ∀ d : Fin 256, B0 (ix2 (y 0) d) = Xa (ix2 (i 0) d)) (h1 : ∀ k, B1 k = Wa k)
    (h2 : ∀ j : Fin 512, B2 (ix2 (0 : Fin 1) j) = slotNorms Wa j) (hi : (i 1).val = (y 1).val) :
    k0_pay4 (F := Ideal) B0 B1 B2 y = scores Xa Wa i := by
  obtain ⟨p, j, rfl⟩ : ∃ (p : Fin 1024) (j : Fin 512), y = ix2 p j := ⟨y 0, y 1, eq_ix2 y⟩
  obtain ⟨r, j', rfl⟩ : ∃ (r : Fin 131072) (j' : Fin 512), i = ix2 r j' := ⟨i 0, i 1, eq_ix2 i⟩
  obtain rfl : j' = j := Fin.ext hi
  obtain ⟨e0, e1, e2⟩ := rows_agree B0 B1 B2 Xa Wa p r h0 h1 h2
  rw [scores_ix2, scores_apply, e0, e1, e2]

theorem weights_point (y : S1024x512.Idx) (i : S131072x512.Idx)
    (h0 : ∀ d : Fin 256, B0 (ix2 (y 0) d) = Xa (ix2 (i 0) d)) (h1 : ∀ k, B1 k = Wa k)
    (h2 : ∀ j : Fin 512, B2 (ix2 (0 : Fin 1) j) = slotNorms Wa j) (hi : (i 1).val = (y 1).val) :
    k0_pay1 (F := Ideal) (k0_pay5 B0 B1 B2) (k0_pay6 B0 B1 B2) y = weights Xa Wa i := by
  obtain ⟨p, j, rfl⟩ : ∃ (p : Fin 1024) (j : Fin 512), y = ix2 p j := ⟨y 0, y 1, eq_ix2 y⟩
  obtain ⟨r, j', rfl⟩ : ∃ (r : Fin 131072) (j' : Fin 512), i = ix2 r j' := ⟨i 0, i 1, eq_ix2 i⟩
  obtain rfl : j' = j := Fin.ext hi
  obtain ⟨e0, e1, e2⟩ := rows_agree B0 B1 B2 Xa Wa p r h0 h1 h2
  rw [weights_ix2, weightBlock_apply, e0, e1, e2]

theorem readouts_point (y : S1024x256.Idx) (i : S131072x256.Idx)
    (h0 : ∀ d : Fin 256, B0 (ix2 (y 0) d) = Xa (ix2 (i 0) d)) (h1 : ∀ k, B1 k = Wa k)
    (h2 : ∀ j : Fin 512, B2 (ix2 (0 : Fin 1) j) = slotNorms Wa j) (hi : (i 1).val = (y 1).val) :
    k0_pay2 (F := Ideal) (k0_pay3 B1) (k0_pay5 B0 B1 B2) (k0_pay6 B0 B1 B2) y = readouts Xa Wa i := by
  obtain ⟨p, d, rfl⟩ : ∃ (p : Fin 1024) (d : Fin 256), y = ix2 p d := ⟨y 0, y 1, eq_ix2 y⟩
  obtain ⟨r, d', rfl⟩ : ∃ (r : Fin 131072) (d' : Fin 256), i = ix2 r d' := ⟨i 0, i 1, eq_ix2 i⟩
  obtain rfl : d' = d := Fin.ext hi
  obtain ⟨e0, e1, e2⟩ := rows_agree B0 B1 B2 Xa Wa p r h0 h1 h2
  rw [readouts_ix2, readoutBlock_apply, e0, e1, e2]

end Point

/-! ## Output window 3: the read-outs -/

/-- Point `t` writes back block `t` of the read-outs of the argument arrays. -/
theorem flushed3_eq (c : Dev nD) (t : Fin cfg0.N) :
    (dats m 0 c).flushed 3 t = ((cfg0.win 3).blk t).view.read (Elt Ideal) (readouts (X m c) (W m c)) := by
  rw [flushed3]
  unfold out0_3
  rw [View.canon_unit_zero hz]
  simp only [View.ld_unit_zero (S := S1024x256) hz, View.ld_unit_zero (S := S512x256) hz, View.ld_unit_zero (S := S1x512) hz]
  obtain ⟨-, -, -, -, -, -, e30, e31, e40, e41, e50, e51⟩ := idx_facts t
  funext y
  refine readouts_point (iblk m c 0 t) (iblk m c 1 t) (iblk m c 2 t) (X m c) (W m c) y (((cfg0.win 3).blk t).view.emb y)
    (fun d => block0_apply m c t _ d _ ?_) (block1_apply m c t) (norms_apply m c t) ?_
  · show win0_3.index t (0 : Fin 2) * 1024 + 1 * (y 0).val = t.val * 1024 + (y 0).val
    omega
  · show win0_3.index t (1 : Fin 2) * 256 + 1 * (y 1).val = (y 1).val
    omega

/-- An index of the array is in point `t`'s block iff each coordinate is in the block's range on its axis. -/
theorem mem_blk3 (t : Fin cfg0.N) (i : S131072x256.Idx) :
    i ∈ ((cfg0.win 3).blk t).view.set ↔ ∀ a : Fin 2, win0_3.index t a * S1024x256.size a ≤ (i a).val ∧ (i a).val < win0_3.index t a * S1024x256.size a + S1024x256.size a := by
  show i ∈ ((View.whole main_v7_0).slice (win0_3.rect t)).set ↔ _
  rw [View.set_slice_whole, Rect.mem_set_unit]
  exact Iff.rfl

/-- Every row of the array lies in the block of the point that is its number divided by 1024. -/
theorem cover3 (i : S131072x256.Idx) : ∃ t : Fin cfg0.N, (cfg0.win 3).flush t = true ∧ i ∈ ((cfg0.win 3).blk t).view.set := by
  have hi0 : (i 0).val < 131072 := (i 0).isLt
  have hi1 : (i 1).val < 256 := (i 1).isLt
  have hN : cfg0.N = 128 := N_0
  obtain ⟨t, ht⟩ : ∃ t : Fin cfg0.N, t.val = (i 0).val / 1024 := ⟨⟨(i 0).val / 1024, by omega⟩, rfl⟩
  obtain ⟨-, -, -, -, -, -, e30, e31, e40, e41, e50, e51⟩ := idx_facts t
  refine ⟨t, flush0_3 t, ?_⟩
  rw [mem_blk3]
  intro a
  match a with
  | ⟨0, _⟩ =>
    show win0_3.index t (0 : Fin 2) * 1024 ≤ (i 0).val ∧ (i 0).val < win0_3.index t (0 : Fin 2) * 1024 + 1024
    omega
  | ⟨1, _⟩ =>
    show win0_3.index t (1 : Fin 2) * 256 ≤ (i 1).val ∧ (i 1).val < win0_3.index t (1 : Fin 2) * 256 + 256
    omega

/-- The array after the run: the read-outs of the argument arrays. -/
theorem final3 (c : Dev nD) : (dats m 0 c).arrAt 3 cfg0.N = readouts (X m c) (W m c) :=
  (dats m 0 c).arrAt_eq_of_cover 3 (readouts (X m c) (W m c)) (fun t _ => flushed3_eq m c t) cover3

/-! ## Output window 4: the addressing weights -/

/-- Point `t` writes back block `t` of the addressing weights of the argument arrays. -/
theorem flushed4_eq (c : Dev nD) (t : Fin cfg0.N) :
    (dats m 0 c).flushed 4 t = ((cfg0.win 4).blk t).view.read (Elt Ideal) (weights (X m c) (W m c)) := by
  rw [flushed4]
  unfold out0_4
  rw [View.canon_unit_zero hz]
  simp only [View.ld_unit_zero (S := S1024x256) hz, View.ld_unit_zero (S := S512x256) hz, View.ld_unit_zero (S := S1x512) hz]
  obtain ⟨-, -, -, -, -, -, e30, e31, e40, e41, e50, e51⟩ := idx_facts t
  funext y
  refine weights_point (iblk m c 0 t) (iblk m c 1 t) (iblk m c 2 t) (X m c) (W m c) y (((cfg0.win 4).blk t).view.emb y)
    (fun d => block0_apply m c t _ d _ ?_) (block1_apply m c t) (norms_apply m c t) ?_
  · show win0_4.index t (0 : Fin 2) * 1024 + 1 * (y 0).val = t.val * 1024 + (y 0).val
    omega
  · show win0_4.index t (1 : Fin 2) * 512 + 1 * (y 1).val = (y 1).val
    omega

/-- An index of the array is in point `t`'s block iff each coordinate is in the block's range on its axis. -/
theorem mem_blk4 (t : Fin cfg0.N) (i : S131072x512.Idx) :
    i ∈ ((cfg0.win 4).blk t).view.set ↔ ∀ a : Fin 2, win0_4.index t a * S1024x512.size a ≤ (i a).val ∧ (i a).val < win0_4.index t a * S1024x512.size a + S1024x512.size a := by
  show i ∈ ((View.whole main_v7_1).slice (win0_4.rect t)).set ↔ _
  rw [View.set_slice_whole, Rect.mem_set_unit]
  exact Iff.rfl

/-- Every row of the array lies in the block of the point that is its number divided by 1024. -/
theorem cover4 (i : S131072x512.Idx) : ∃ t : Fin cfg0.N, (cfg0.win 4).flush t = true ∧ i ∈ ((cfg0.win 4).blk t).view.set := by
  have hi0 : (i 0).val < 131072 := (i 0).isLt
  have hi1 : (i 1).val < 512 := (i 1).isLt
  have hN : cfg0.N = 128 := N_0
  obtain ⟨t, ht⟩ : ∃ t : Fin cfg0.N, t.val = (i 0).val / 1024 := ⟨⟨(i 0).val / 1024, by omega⟩, rfl⟩
  obtain ⟨-, -, -, -, -, -, e30, e31, e40, e41, e50, e51⟩ := idx_facts t
  refine ⟨t, flush0_4 t, ?_⟩
  rw [mem_blk4]
  intro a
  match a with
  | ⟨0, _⟩ =>
    show win0_4.index t (0 : Fin 2) * 1024 ≤ (i 0).val ∧ (i 0).val < win0_4.index t (0 : Fin 2) * 1024 + 1024
    omega
  | ⟨1, _⟩ =>
    show win0_4.index t (1 : Fin 2) * 512 ≤ (i 1).val ∧ (i 1).val < win0_4.index t (1 : Fin 2) * 512 + 512
    omega

/-- The array after the run: the addressing weights of the argument arrays. -/
theorem final4 (c : Dev nD) : (dats m 0 c).arrAt 4 cfg0.N = weights (X m c) (W m c) :=
  (dats m 0 c).arrAt_eq_of_cover 4 (weights (X m c) (W m c)) (fun t _ => flushed4_eq m c t) cover4

/-! ## Output window 5: the scores -/

/-- Point `t` writes back block `t` of the scores of the argument arrays. -/
theorem flushed5_eq (c : Dev nD) (t : Fin cfg0.N) :
    (dats m 0 c).flushed 5 t = ((cfg0.win 5).blk t).view.read (Elt Ideal) (scores (X m c) (W m c)) := by
  rw [flushed5]
  unfold out0_5
  rw [View.canon_unit_zero hz]
  simp only [View.ld_unit_zero (S := S1024x256) hz, View.ld_unit_zero (S := S512x256) hz, View.ld_unit_zero (S := S1x512) hz]
  obtain ⟨-, -, -, -, -, -, e30, e31, e40, e41, e50, e51⟩ := idx_facts t
  funext y
  refine scores_point (iblk m c 0 t) (iblk m c 1 t) (iblk m c 2 t) (X m c) (W m c) y (((cfg0.win 5).blk t).view.emb y)
    (fun d => block0_apply m c t _ d _ ?_) (block1_apply m c t) (norms_apply m c t) ?_
  · show win0_5.index t (0 : Fin 2) * 1024 + 1 * (y 0).val = t.val * 1024 + (y 0).val
    omega
  · show win0_5.index t (1 : Fin 2) * 512 + 1 * (y 1).val = (y 1).val
    omega

/-- An index of the array is in point `t`'s block iff each coordinate is in the block's range on its axis. -/
theorem mem_blk5 (t : Fin cfg0.N) (i : S131072x512.Idx) :
    i ∈ ((cfg0.win 5).blk t).view.set ↔ ∀ a : Fin 2, win0_5.index t a * S1024x512.size a ≤ (i a).val ∧ (i a).val < win0_5.index t a * S1024x512.size a + S1024x512.size a := by
  show i ∈ ((View.whole main_v7_2).slice (win0_5.rect t)).set ↔ _
  rw [View.set_slice_whole, Rect.mem_set_unit]
  exact Iff.rfl

/-- Every row of the array lies in the block of the point that is its number divided by 1024. -/
theorem cover5 (i : S131072x512.Idx) : ∃ t : Fin cfg0.N, (cfg0.win 5).flush t = true ∧ i ∈ ((cfg0.win 5).blk t).view.set := by
  have hi0 : (i 0).val < 131072 := (i 0).isLt
  have hi1 : (i 1).val < 512 := (i 1).isLt
  have hN : cfg0.N = 128 := N_0
  obtain ⟨t, ht⟩ : ∃ t : Fin cfg0.N, t.val = (i 0).val / 1024 := ⟨⟨(i 0).val / 1024, by omega⟩, rfl⟩
  obtain ⟨-, -, -, -, -, -, e30, e31, e40, e41, e50, e51⟩ := idx_facts t
  refine ⟨t, flush0_5 t, ?_⟩
  rw [mem_blk5]
  intro a
  match a with
  | ⟨0, _⟩ =>
    show win0_5.index t (0 : Fin 2) * 1024 ≤ (i 0).val ∧ (i 0).val < win0_5.index t (0 : Fin 2) * 1024 + 1024
    omega
  | ⟨1, _⟩ =>
    show win0_5.index t (1 : Fin 2) * 512 ≤ (i 1).val ∧ (i 1).val < win0_5.index t (1 : Fin 2) * 512 + 512
    omega

/-- The array after the run: the scores of the argument arrays. -/
theorem final5 (c : Dev nD) : (dats m 0 c).arrAt 5 cfg0.N = scores (X m c) (W m c) :=
  (dats m 0 c).arrAt_eq_of_cover 5 (scores (X m c) (W m c)) (fun t _ => flushed5_eq m c t) cover5

/-! ## The run, read -/

/-- Every weakly fair execution of the kernel's program terminates with the three result arrays at the read-outs, the
    addressing weights and the scores of the argument arrays, the arguments unchanged. -/
theorem run : θ_run defs (onTc (τ := τ) (main (F := Ideal))) ⟨m, fun _ => 0, ρ⟩ fun r => ∀ c : Dev nD,
      r.2.mem ((c : Thread nD τ).loc main_v7_0) = readouts (X m c) (W m c)
      ∧ r.2.mem ((c : Thread nD τ).loc main_v7_1) = weights (X m c) (W m c)
      ∧ r.2.mem ((c : Thread nD τ).loc main_v7_2) = scores (X m c) (W m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final3 m c), (h c).2.1.trans (final4 m c),
      (h c).2.2.1.trans (final5 m c), (h c).2.2.2.1, (h c).2.2.2.2⟩)
    (run_blocks m ρ)

end Cert.KernelArray

end
-- ==== Proof.RefRows.lean ====
/-
  The reference program is the specification.

  The reference program is a straight line of array operations.  Read one element at a time, each operation is one
  scalar operation on the elements of its operands at the same row and slot; a broadcast repeats a row's (or a
  slot's) value along the other axis, a transpose exchanges the two coordinates, a sum or a maximum runs over the
  coordinates of one axis.  Following the operations in program order, at coordinates `(r, j)` (row `r` of the
  input, slot `j` of the memory), every intermediate array is one of the row functions of the specification at
  row `r`: floored norm, score, largest score, shifted exponential, softmax, hard-shrunk value, absolute mass,
  addressing weight, read-out.  Each stage below is one such identification and cites the previous ones.
-/
import proofs.«109881_j46712064311890_1_alg».proof.Proof.Gen.ReferenceIdeal.Read
import proofs.«109881_j46712064311890_1_alg».proof.Proof.Spec
import Idealize.ShloMosaic.Lib.ValueIdx
import Idealize.ShloMosaic.Lib.Pipeline.Value
import Idealize.ShloMosaic.PureOps.Ideal.Laws

noncomputable section

namespace Cert.RefRows

open Idealize.ShloMosaic Idealize.ShloMosaic.ValueIdx Cert.ReferenceIdeal Cert.ReferenceIdeal.Read Cert.ShrinkAddress

variable (X : (⟨S131072x256, .f32⟩ : BufTy).Contents (Elt Ideal)) (W : (⟨S512x256, .f32⟩ : BufTy).Contents (Elt Ideal))

/-! ## Stage 1: the floored norms

  The norm of a row is the square root of the sum of its squares, started from the word of zero, which is the
  real zero and drops out of the sum; the floor is the same word on both sides. -/

/-- The column index `(r, 0)` of a row-wise result, read through the keep-dimension broadcast, is the row `r`. -/
theorem idx_rowNorm_keep (r : Fin 131072) : idx_main_call0_v2 (ix2 r (0 : Fin 1)) = ix1 r :=
  funext fun a => Fin.ext (by match a with | ⟨0, _⟩ => rfl)

/-- Row `r` with feature `k` put back is `(r, k)`. -/
theorem idx_rowNorm_sum (r : Fin 131072) (k : Fin 256) : idx_main_call0_v1 (ix1 r) k = ix2 r k :=
  funext fun a => Fin.ext (by match a with | ⟨0, _⟩ => rfl | ⟨1, _⟩ => rfl)

/-- The reference's norm column at row `r` is the floored Euclidean norm of row `r` of the input. -/
theorem ref_rowNorm (r : Fin 131072) :
    val_main_v2 (F := Ideal) X (ix2 r (0 : Fin 1)) = flooredNorm (rowOf (R := 131072) (D := 256) X r) := by
  rw [val_main_v2_apply, val_main_v0_apply, val_main_call0_v2_apply, idx_rowNorm_keep, val_main_call0_v1_apply,
    val_main_v1_apply, val_main_cst_apply, val_main_call0_cst_apply]
  have hs : ∑ k : Fin 256, val_main_call0_v0 (F := Ideal) X (idx_main_call0_v1 (ix1 r) k)
      = ∑ k : Fin 256, X (ix2 r k) * X (ix2 r k) :=
    Finset.sum_congr rfl fun k _ => by rw [idx_rowNorm_sum, val_main_call0_v0_apply, Ideal.mulf_def]
  rw [hs]
  simp only [Ideal.maximumf_def, Ideal.hostUnary_sqrt_def, Ideal.ofBits_def, Ideal.ofBits_zero_f32, zero_add,
    flooredNorm, rowOf]

/-- The column index `(j, 0)` of a slot-wise result, read through the keep-dimension broadcast, is the slot `j`. -/
theorem idx_slotNorm_keep (j : Fin 512) : idx_main_call1_v2 (ix2 j (0 : Fin 1)) = ix1 j :=
  funext fun a => Fin.ext (by match a with | ⟨0, _⟩ => rfl)

/-- Slot `j` with feature `k` put back is `(j, k)`. -/
theorem idx_slotNorm_sum (j : Fin 512) (k : Fin 256) : idx_main_call1_v1 (ix1 j) k = ix2 j k :=
  funext fun a => Fin.ext (by match a with | ⟨0, _⟩ => rfl | ⟨1, _⟩ => rfl)

/-- The reference's slot-norm column at slot `j` is the floored Euclidean norm of slot `j`. -/
theorem ref_slotNorm (j : Fin 512) :
    val_main_v5 (F := Ideal) W (ix2 j (0 : Fin 1)) = slotNorms (M := 512) (D := 256) W j := by
  rw [val_main_v5_apply, val_main_v3_apply, val_main_call1_v2_apply, idx_slotNorm_keep, val_main_call1_v1_apply,
    val_main_v4_apply, val_main_cst_0_apply, val_main_call1_cst_apply]
  have hs : ∑ k : Fin 256, val_main_call1_v0 (F := Ideal) W (idx_main_call1_v1 (ix1 j) k)
      = ∑ k : Fin 256, W (ix2 j k) * W (ix2 j k) :=
    Finset.sum_congr rfl fun k _ => by rw [idx_slotNorm_sum, val_main_call1_v0_apply, Ideal.mulf_def]
  rw [hs]
  simp only [Ideal.maximumf_def, Ideal.hostUnary_sqrt_def, Ideal.ofBits_def, Ideal.ofBits_zero_f32, zero_add,
    slotNorms, flooredNorm, slots]

/-! ## Stage 2: the scores

  The matrix product against the transposed memory is, at `(r, j)`, the inner product of row `r` with slot `j`;
  the two broadcasts bring the row's norm and the slot's norm to `(r, j)`; the quotient is the score. -/

/-- Broadcasting the rows' column along the slots reads `(r, 0)` at `(r, j)`. -/
theorem idx_bcast_row (r : Fin 131072) (j : Fin 512) : idx_main_v9 (ix2 r j) = ix2 r (0 : Fin 1) :=
  funext fun a => Fin.ext (by match a with | ⟨0, _⟩ => rfl | ⟨1, _⟩ => rfl)

/-- Transposing the slots' column and broadcasting it along the rows reads `(j, 0)` at `(r, j)`. -/
theorem idx_bcast_slot (r : Fin 131072) (j : Fin 512) : idx_main_v8 (idx_main_v10 (ix2 r j)) = ix2 j (0 : Fin 1) :=
  funext fun a => Fin.ext (by match a with | ⟨0, _⟩ => rfl | ⟨1, _⟩ => rfl)

/-- The product's left operand at `(r, j)`, contraction coordinate `k`, is `(r, k)`. -/
theorem idx_dot_left (r : Fin 131072) (j : Fin 512) (k : Fin 256) : lidx_main_v7 (ix2 r j) k = ix2 r k :=
  funext fun a => Fin.ext (by match a with | ⟨0, _⟩ => rfl | ⟨1, _⟩ => rfl)

/-- The product's right operand, the transposed memory, at `(r, j)`, contraction coordinate `k`, is the memory at `(j, k)`. -/
theorem idx_dot_right (r : Fin 131072) (j : Fin 512) (k : Fin 256) :
    idx_main_v6 (ridx_main_v7 (ix2 r j) k) = ix2 j k :=
  funext fun a => Fin.ext (by match a with | ⟨0, _⟩ => rfl | ⟨1, _⟩ => rfl)

/-- The reference's score array at `(r, j)` is the score of slot `j` for row `r`. -/
theorem ref_score (r : Fin 131072) (j : Fin 512) :
    val_main_v12 (F := Ideal) X W (ix2 r j)
      = score (rowOf (R := 131072) (D := 256) X r) (slots (M := 512) (D := 256) W) (slotNorms (M := 512) (D := 256) W) j := by
  rw [val_main_v12_apply, val_main_v7_apply, val_main_v11_apply, val_main_v9_apply, val_main_v10_apply,
    val_main_v8_apply, idx_bcast_row, idx_bcast_slot, ref_rowNorm, ref_slotNorm]
  have hs : ∑ k : Fin 256, X (lidx_main_v7 (ix2 r j) k) * val_main_v6 (F := Ideal) W (ridx_main_v7 (ix2 r j) k)
      = ∑ k : Fin 256, X (ix2 r k) * W (ix2 j k) :=
    Finset.sum_congr rfl fun k _ => by rw [idx_dot_left, val_main_v6_apply, idx_dot_right]
  rw [hs]
  simp only [Ideal.hostDivf_def, Ideal.mulf_def, score, rowOf, slots]

/-! ## Stage 3: the row's largest score

  The maximum over the slots, folded from the word of minus infinity, is a fold of a commutative and associative
  operation over the coordinates of the dropped axis; the row `r` with slot `k` put back is `(r, k)`, where the
  array is the score.  The reference then takes the maximum with the word of minus infinity once more. -/

/-- Row `r` with the slot coordinate `k` put back on the dropped axis is `(r, k)`. -/
theorem lift_row (h : S131072x512.Reduces [1] S131072) (r : Fin 131072) (k : Fin (S131072x512.size 1)) :
    h.lift (ix1 r) k = ix2 r (⟨k.val, k.isLt⟩ : Fin 512) := by
  funext c
  apply Fin.ext
  match c with
  | ⟨0, _⟩ => rfl
  | ⟨1, _⟩ => rfl

/-- The reference's floored row maximum at row `r` is the largest score of row `r`. -/
theorem ref_top (r : Fin 131072) :
    val_main_v15 (F := Ideal) X W (ix1 r) = top (rowOf (R := 131072) (D := 256) X r) (slots (M := 512) (D := 256) W) (slotNorms (M := 512) (D := 256) W) := by
  have h : S131072x512.Reduces [1] S131072 := by decide
  rw [val_main_v15_apply, val_main_v14_apply, val_main_cst_2_apply]
  unfold val_main_v13
  have e := Host.reduce_eq_fold_single (FloatOps.maximumf (F := Ideal) (φ := .f32)) (val_main_v12 (F := Ideal) X W)
    (val_main_cst_1 (F := Ideal)) Gen.reducesTo_S131072x512_S131072_d1 h Gen.h_S_ (ix1 r)
  rw [e, val_main_cst_1_apply]
  have hf : (val_main_v12 (F := Ideal) X W ∘ h.lift (ix1 r))
      = fun k : Fin 512 => score (rowOf (R := 131072) (D := 256) X r) (slots (M := 512) (D := 256) W) (slotNorms (M := 512) (D := 256) W) k :=
    funext fun k => (congrArg (val_main_v12 (F := Ideal) X W) (lift_row h r k)).trans (ref_score X W r ⟨k.val, k.isLt⟩)
  unfold top
  exact congrArg (fun f => max bottom (Finset.fold max bottom f (Finset.univ : Finset (Fin 512)))) hf

/-! ## Stage 4: the shifted exponentials and the softmax

  The row maximum is broadcast back to `(r, j)`, subtracted and exponentiated; the exponentials of a row are summed
  from the word of zero, the sum is broadcast back and divides. -/

/-- The two keep-dimension broadcasts of the row maximum read row `r` at `(r, j)`. -/
theorem idx_bcast_top (r : Fin 131072) (j : Fin 512) : idx_main_v16 (idx_main_v17 (ix2 r j)) = ix1 r :=
  funext fun a => Fin.ext (by match a with | ⟨0, _⟩ => rfl)

/-- The reference's exponential array at `(r, j)` is the shifted exponential of the score. -/
theorem ref_expo (r : Fin 131072) (j : Fin 512) :
    val_main_v19 (F := Ideal) X W (ix2 r j) = expo (rowOf (R := 131072) (D := 256) X r) (slots (M := 512) (D := 256) W) (slotNorms (M := 512) (D := 256) W) j := by
  rw [val_main_v19_apply, val_main_v18_apply, val_main_v17_apply, val_main_v16_apply, idx_bcast_top, ref_score, ref_top]
  simp only [Ideal.hostUnary_exp_def, Ideal.subf_def, expo]

/-- Row `r` with slot `k` put back is `(r, k)`. -/
theorem idx_expoSum (r : Fin 131072) (k : Fin 512) : idx_main_v20 (ix1 r) k = ix2 r k :=
  funext fun a => Fin.ext (by match a with | ⟨0, _⟩ => rfl | ⟨1, _⟩ => rfl)

/-- The reference's row sum of exponentials at row `r` is the sum of the row's shifted exponentials. -/
theorem ref_expoSum (r : Fin 131072) :
    val_main_v20 (F := Ideal) X W (ix1 r) = ∑ k : Fin 512, expo (rowOf (R := 131072) (D := 256) X r) (slots (M := 512) (D := 256) W) (slotNorms (M := 512) (D := 256) W) k := by
  rw [val_main_v20_apply, val_main_cst_3_apply]
  have hs : ∑ k : Fin 512, val_main_v19 (F := Ideal) X W (idx_main_v20 (ix1 r) k)
      = ∑ k : Fin 512, expo (rowOf (R := 131072) (D := 256) X r) (slots (M := 512) (D := 256) W) (slotNorms (M := 512) (D := 256) W) k :=
    Finset.sum_congr rfl fun k _ => by rw [idx_expoSum, ref_expo]
  rw [hs]
  simp only [Ideal.ofBits_def, Ideal.ofBits_zero_f32, zero_add]

/-- The two keep-dimension broadcasts of the row sum read row `r` at `(r, j)`. -/
theorem idx_bcast_expoSum (r : Fin 131072) (j : Fin 512) : idx_main_v21 (idx_main_v22 (ix2 r j)) = ix1 r :=
  funext fun a => Fin.ext (by match a with | ⟨0, _⟩ => rfl)

/-- The reference's softmax array at `(r, j)` is the softmax of the row's scores at slot `j`. -/
theorem ref_soft (r : Fin 131072) (j : Fin 512) :
    val_main_v23 (F := Ideal) X W (ix2 r j) = soft (rowOf (R := 131072) (D := 256) X r) (slots (M := 512) (D := 256) W) (slotNorms (M := 512) (D := 256) W) j := by
  rw [val_main_v23_apply, val_main_v22_apply, val_main_v21_apply, idx_bcast_expoSum, ref_expoSum, ref_expo]
  simp only [Ideal.hostDivf_def, soft]

/-! ## Stage 5: the hard shrinkage

  With `a` the softmax value and `λ` the threshold word: the rectifier is the maximum of `a - λ` with the word of
  zero, the absolute value of `a - λ` is the maximum of it and its negative, and the quotient of
  `max (a - λ) 0 · a` by `|a - λ| + ε` is the shrunk value. -/

/-- The reference's shrunk array at `(r, j)` is the hard-shrunk softmax value. -/
theorem ref_shrunk (r : Fin 131072) (j : Fin 512) :
    val_main_v31 (F := Ideal) X W (ix2 r j) = shrunk (rowOf (R := 131072) (D := 256) X r) (slots (M := 512) (D := 256) W) (slotNorms (M := 512) (D := 256) W) j := by
  rw [val_main_v31_apply, val_main_v27_apply, val_main_v30_apply, val_main_v26_apply, val_main_v28_apply,
    val_main_v25_apply, val_main_v24_apply, val_main_cst_4_apply, val_main_call2_v0_apply, val_main_call2_cst_apply,
    val_main_v29_apply, val_main_cst_5_apply, ref_soft]
  simp only [Ideal.hostDivf_def, Ideal.mulf_def, Ideal.maximumf_def, Ideal.subf_def, Ideal.addf_def, Ideal.hostAbsf_def,
    absf_eq, Ideal.ofBits_def, shrunk]

/-! ## Stage 6: the absolute mass and the addressing weights

  The absolute values of a row's shrunk values are summed from the word of zero and floored at `ε`; the floored
  mass is broadcast back to `(r, j)` and divides the shrunk value. -/

/-- The mass column at `(r, 0)`, read through the keep-dimension broadcast, is row `r`. -/
theorem idx_mass_keep (r : Fin 131072) : idx_main_v34 (ix2 r (0 : Fin 1)) = ix1 r :=
  funext fun a => Fin.ext (by match a with | ⟨0, _⟩ => rfl)

/-- Row `r` with slot `k` put back is `(r, k)`. -/
theorem idx_mass_sum (r : Fin 131072) (k : Fin 512) : idx_main_v33 (ix1 r) k = ix2 r k :=
  funext fun a => Fin.ext (by match a with | ⟨0, _⟩ => rfl | ⟨1, _⟩ => rfl)

/-- The reference's floored mass column at row `r` is the floored absolute sum of the row's shrunk values. -/
theorem ref_mass (r : Fin 131072) :
    val_main_v36 (F := Ideal) X W (ix2 r (0 : Fin 1)) = mass (rowOf (R := 131072) (D := 256) X r) (slots (M := 512) (D := 256) W) (slotNorms (M := 512) (D := 256) W) := by
  rw [val_main_v36_apply, val_main_v34_apply, idx_mass_keep, val_main_v33_apply, val_main_cst_6_apply,
    val_main_v35_apply, val_main_cst_7_apply]
  have hs : ∑ k : Fin 512, val_main_v32 (F := Ideal) X W (idx_main_v33 (ix1 r) k)
      = ∑ k : Fin 512, max (shrunk (rowOf (R := 131072) (D := 256) X r) (slots (M := 512) (D := 256) W) (slotNorms (M := 512) (D := 256) W) k) (-(shrunk (rowOf (R := 131072) (D := 256) X r) (slots (M := 512) (D := 256) W) (slotNorms (M := 512) (D := 256) W) k)) :=
    Finset.sum_congr rfl fun k _ => by rw [idx_mass_sum, val_main_v32_apply, ref_shrunk, Ideal.hostAbsf_def, absf_eq]
  rw [hs]
  simp only [Ideal.maximumf_def, Ideal.ofBits_def, Ideal.ofBits_zero_f32, zero_add, mass]

/-- Broadcasting the mass column along the slots reads `(r, 0)` at `(r, j)`. -/
theorem idx_bcast_mass (r : Fin 131072) (j : Fin 512) : idx_main_v37 (ix2 r j) = ix2 r (0 : Fin 1) :=
  funext fun a => Fin.ext (by match a with | ⟨0, _⟩ => rfl | ⟨1, _⟩ => rfl)

/-- The reference's weight array at `(r, j)` is the addressing weight of slot `j` for row `r`. -/
theorem ref_weight (r : Fin 131072) (j : Fin 512) :
    val_main_v38 (F := Ideal) X W (ix2 r j) = weight (rowOf (R := 131072) (D := 256) X r) (slots (M := 512) (D := 256) W) (slotNorms (M := 512) (D := 256) W) j := by
  rw [val_main_v38_apply, val_main_v37_apply, idx_bcast_mass, ref_mass, ref_shrunk]
  simp only [Ideal.hostDivf_def, weight]

/-! ## Stage 7: the read-out

  The matrix product of the weights with the memory is, at `(r, d)`, the sum over the slots of the weight times the
  slot's feature `d`. -/

/-- The product's left operand at `(r, d)`, contraction coordinate `k`, is `(r, k)`. -/
theorem idx_read_left (r : Fin 131072) (d : Fin 256) (k : Fin 512) : lidx_main_v39 (ix2 r d) k = ix2 r k :=
  funext fun a => Fin.ext (by match a with | ⟨0, _⟩ => rfl | ⟨1, _⟩ => rfl)

/-- The product's right operand at `(r, d)`, contraction coordinate `k`, is `(k, d)`. -/
theorem idx_read_right (r : Fin 131072) (d : Fin 256) (k : Fin 512) : ridx_main_v39 (ix2 r d) k = ix2 k d :=
  funext fun a => Fin.ext (by match a with | ⟨0, _⟩ => rfl | ⟨1, _⟩ => rfl)

/-- The reference's read-out array at `(r, d)` is the weights' combination of the slots at feature `d`. -/
theorem ref_readout (r : Fin 131072) (d : Fin 256) :
    val_main_v39 (F := Ideal) X W (ix2 r d) = readout (rowOf (R := 131072) (D := 256) X r) (slots (M := 512) (D := 256) W) (slotNorms (M := 512) (D := 256) W) d := by
  rw [val_main_v39_apply]
  unfold readout
  exact Finset.sum_congr rfl fun k _ => by rw [idx_read_left, idx_read_right, ref_weight]; rfl

/-! ## The three result arrays

  Every index of a rank-2 array is the pair of its coordinates, so the identifications at coordinates are
  identifications of arrays. -/

/-- The reference's score array is the specification's. -/
theorem ref_scores (X : (⟨S131072x256, .f32⟩ : BufTy).Contents (Elt Ideal)) (W : (⟨S512x256, .f32⟩ : BufTy).Contents (Elt Ideal)) :
    val_main_v12 (F := Ideal) X W = scores (R := 131072) (D := 256) (M := 512) X W := by
  funext i
  obtain ⟨r, j, rfl⟩ : ∃ (r : Fin 131072) (j : Fin 512), i = ix2 r j := ⟨i 0, i 1, eq_ix2 i⟩
  rw [scores_ix2]
  exact ref_score X W r j

/-- The reference's weight array is the specification's. -/
theorem ref_weights (X : (⟨S131072x256, .f32⟩ : BufTy).Contents (Elt Ideal)) (W : (⟨S512x256, .f32⟩ : BufTy).Contents (Elt Ideal)) :
    val_main_v38 (F := Ideal) X W = weights (R := 131072) (D := 256) (M := 512) X W := by
  funext i
  obtain ⟨r, j, rfl⟩ : ∃ (r : Fin 131072) (j : Fin 512), i = ix2 r j := ⟨i 0, i 1, eq_ix2 i⟩
  rw [weights_ix2]
  exact ref_weight X W r j

/-- The reference's read-out array is the specification's. -/
theorem ref_readouts (X : (⟨S131072x256, .f32⟩ : BufTy).Contents (Elt Ideal)) (W : (⟨S512x256, .f32⟩ : BufTy).Contents (Elt Ideal)) :
    val_main_v39 (F := Ideal) X W = readouts (R := 131072) (D := 256) (M := 512) X W := by
  funext i
  obtain ⟨r, d, rfl⟩ : ∃ (r : Fin 131072) (d : Fin 256), i = ix2 r d := ⟨i 0, i 1, eq_ix2 i⟩
  rw [readouts_ix2]
  exact ref_readout X W r d

end Cert.RefRows

end
-- ==== Proof.lean ====
/-
  The proof of `Cert.Claim`: the kernel's program and the jnp reference compute the same three arrays on the
  extended reals.

  Both compare every input row with the 512 memory slots by the cosine of their angle (norms floored at the word of
  1e-8), take the softmax of a row's scores, hard-shrink it at the word of 0.0025, divide by the floored absolute sum
  and read the memory out with the resulting weights (Proof/Spec.lean states this once, per row).  The programs differ
  only in layout: the kernel works on blocks of 1024 rows, contracts the features of the block against the features of
  the memory matrix directly and receives the slots' norms as a row computed on the host; the reference transposes
  the memory matrix and the column of norms.  At the ideal values a change of float format is the identity, so the
  kernel's bf16 operands of its two products are the operands themselves, and sums and maxima over a row are the same
  `Fin`-indexed sums and folds on both sides.  No law of the extended reals beyond that is used, and the
  precondition is never opened.

  The kernel's three result arrays are read off the generated frame run block by block (Proof/KernelRows.lean,
  Proof/HostNorms.lean, Proof/KernelArray.lean), the reference's off its generated run, operation by operation
  (Proof/RefRows.lean).  The ideal pass rewrote nothing, so `preserves` is trivial.
-/
import proofs.«109881_j46712064311890_1_alg».proof.Defs
import proofs.«109881_j46712064311890_1_alg».proof.Proof.Gen.Kernel
import proofs.«109881_j46712064311890_1_alg».proof.Proof.Gen.Kernel.Skeleton
import proofs.«109881_j46712064311890_1_alg».proof.Proof.Gen.Kernel.Launch
import proofs.«109881_j46712064311890_1_alg».proof.Proof.Gen.Kernel.Points
import proofs.«109881_j46712064311890_1_alg».proof.Proof.Gen.Kernel.Frame
import proofs.«109881_j46712064311890_1_alg».proof.Proof.Gen.KernelIdeal
import proofs.«109881_j46712064311890_1_alg».proof.Proof.Gen.KernelIdeal.Skeleton
import proofs.«109881_j46712064311890_1_alg».proof.Proof.Gen.KernelIdeal.Launch
import proofs.«109881_j46712064311890_1_alg».proof.Proof.Gen.KernelIdeal.Points
import proofs.«109881_j46712064311890_1_alg».proof.Proof.Gen.KernelIdeal.Frame
import proofs.«109881_j46712064311890_1_alg».proof.Proof.Gen.ReferenceIdeal
import proofs.«109881_j46712064311890_1_alg».proof.Proof.Gen.Pre_finite_inputs
import proofs.«109881_j46712064311890_1_alg».proof.Proof.Gen.KernelIdeal.Value
import proofs.«109881_j46712064311890_1_alg».proof.Proof.Gen.ReferenceIdeal.Run
import proofs.«109881_j46712064311890_1_alg».proof.Proof.Gen.ReferenceIdeal.Read
import proofs.«109881_j46712064311890_1_alg».proof.Proof.Spec
import proofs.«109881_j46712064311890_1_alg».proof.Proof.KernelArray
import proofs.«109881_j46712064311890_1_alg».proof.Proof.RefRows
import Idealize.ShloMosaic.Adequacy
import Idealize.ShloMosaic.Init

noncomputable section

namespace Cert.Proof

open Idealize.ShloMosaic Idealize.ShloMosaic.TcCoe Idealize.SL.Sem Cert.ShrinkAddress

/-- The kernel's program as printed runs, and leaves its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments: its run, with the results dropped. -/
theorem frame_referenceIdeal : Cert.frame_ReferenceIdeal := fun m ρ _ =>
  (θ_run Cert.ReferenceIdeal.defs _ _).mono (fun _ h c => ⟨(h c).2.2.2.1, (h c).2.2.2.2⟩)
    (Cert.ReferenceIdeal.Value.run (F := Ideal) m ρ)

/-- The ideal pass rewrote no operation. -/
theorem preserves : Cert.preserves_Kernel_KernelIdeal := trivial

/-- From memories agreeing on the two arguments both programs end with the read-outs, the addressing weights and the
    scores of those arguments: the kernel's by its blocks, the reference's by its operations. -/
theorem algebraic : Cert.algebraic_KernelIdeal_ReferenceIdeal := by
  intro m ρ m' ρ' _ hagree
  refine ⟨fun c => readouts (Cert.KernelArray.X m c) (Cert.KernelArray.W m c),
    fun c => weights (Cert.KernelArray.X m c) (Cert.KernelArray.W m c),
    fun c => scores (Cert.KernelArray.X m c) (Cert.KernelArray.W m c), Cert.KernelArray.run m ρ, ?_⟩
  refine (θ_run Cert.ReferenceIdeal.defs _ _).mono (fun _ h c => ⟨?_, ?_, ?_, (h c).2.2.2.1, (h c).2.2.2.2⟩)
    (Cert.ReferenceIdeal.Value.run (F := Ideal) m' ρ')
  · rw [(h c).1, Cert.ReferenceIdeal.Read.val_main_v39_eq, Cert.RefRows.ref_readouts, (hagree c).1, (hagree c).2]
  · rw [(h c).2.1, Cert.ReferenceIdeal.Read.val_main_v38_eq, Cert.RefRows.ref_weights, (hagree c).1, (hagree c).2]
  · rw [(h c).2.2.1, Cert.ReferenceIdeal.Read.val_main_v12_eq, Cert.RefRows.ref_scores, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
